-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S4096 : Shape := ⟨1, ![4096]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192 .f32) (main_arg1 : IVec S4096 1) (main_arg2 : FVec F S4096 .f32) (main_arg3 : FVec F S4096 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192 : Shape := ⟨1, ![8192]⟩
abbrev S4096 : Shape := ⟨1, ![4096]⟩
abbrev S1x1 : Shape := ⟨2, ![1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8192, .f32⟩
  | .hbm, ⟨1, _⟩ => ⟨S4096, .i1⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x1, .f32⟩
  | .hbm, ⟨7, _⟩ => ⟨S_, .f32⟩
  | .local _ .vmem, ⟨0, _⟩ => ⟨S4096, .f32⟩
  | .local _ .vmem, ⟨1, _⟩ => ⟨S4096, .f32⟩
  | .local _ .vmem, ⟨2, _⟩ => ⟨S4096, .f32⟩
  | .local _ .vmem, ⟨3, _⟩ => ⟨S4096, .f32⟩
  | .local _ .vmem, ⟨4, _⟩ => ⟨S1x1, .f32⟩
  | .local _ .vmem, ⟨5, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_cond2 (i : grid0.Coords) : BitVec 1 :=
  let arg0 : BitVec 32 := BitVec.ofNat 32 (i 0).val
  let c512_i32 : BitVec 32 := 512#32
  let v5 : BitVec 32 := Scalar.muli arg0 c512_i32
  let v6 : BitVec 32 := v5
  let arg1 : BitVec 32 := BitVec.ofNat 32 (i 1).val
  let c512_i32_2 : BitVec 32 := 512#32
  let v7 : BitVec 32 := Scalar.muli arg1 c512_i32_2
  let v8 : BitVec 32 := v7
  let c512_i32_3 : BitVec 32 := 512#32
  let v9 : BitVec 32 := Scalar.addi v8 c512_i32_3
  let v10 : BitVec 1 := Scalar.cmpi .slt v6 v9
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c512_i32 : BitVec 32 := 512#32
  let v5 : BitVec 32 := Scalar.muli arg0 c512_i32
  let v6 : BitVec 32 := v5
  let v18 : Index := Scalar.indexCast v6
  ![v18.toNat]
def k0_off2 (i : grid0.Coords) : Fin 1 → Nat :=
  let arg1 : BitVec 32 := BitVec.ofNat 32 (i 1).val
  let c512_i32_2 : BitVec 32 := 512#32
  let v7 : BitVec 32 := Scalar.muli arg1 c512_i32_2
  let v8 : BitVec 32 := v7
  let v21 : Index := Scalar.indexCast v8
  ![v21.toNat]
def k0_cond3 (i : grid0.Coords) : BitVec 1 :=
  let arg0 : BitVec 32 := BitVec.ofNat 32 (i 0).val
  let c7_i32 : BitVec 32 := 7#32
  let v13 : BitVec 1 := Scalar.cmpi .eq arg0 c7_i32
  let arg1 : BitVec 32 := BitVec.ofNat 32 (i 1).val
  let c7_i32_5 : BitVec 32 := 7#32
  let v14 : BitVec 1 := Scalar.cmpi .eq arg1 c7_i32_5
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S8192_S4096_0 : S8192.Slices ![0] S4096
  slices_S8192_S4096_4096 : S8192.Slices ![4096] S4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512 : 0 < S512.numel
  shapeCasts_S512_S512 : S512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ (k0_h2 : k0_cond2 i = 1#1), ∀ a, (k0_off1 i) a + S512.size a ≤ S4096.size a
  k0_off2_inb : ∀ i : grid0.Coords, ∀ (k0_h2 : k0_cond2 i = 1#1), ∀ a, (k0_off2 i) a + S512.size a ≤ S4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S4096.size a
  hwx0_0 : ∀ i : grid0.Coords, EltTy.bits .f32 = 32 ∨ (Rect.block (s := S4096) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192, .f32⟩
  | .hbm, ⟨1, _⟩ => ⟨S4096, .i1⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x1, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .i1⟩
  | .hbm, ⟨50, _⟩ => ⟨S4096x4096, .i1⟩
  | .hbm, ⟨51, _⟩ => ⟨S4096x4096, .i32⟩
  | .hbm, ⟨52, _⟩ => ⟨S_, .i32⟩
  | .hbm, ⟨53, _⟩ => ⟨S4096x4096, .i32⟩
  | .hbm, ⟨54, _⟩ => ⟨S4096x4096, .i32⟩
  | .hbm, ⟨55, _⟩ => ⟨S4096x4096, .i32⟩
  | .hbm, ⟨56, _⟩ => ⟨S4096x4096, .i1⟩
  | .hbm, ⟨57, _⟩ => ⟨S_, .i1⟩
  | .hbm, ⟨58, _⟩ => ⟨S4096x4096, .i1⟩
  | .hbm, ⟨59, _⟩ => ⟨S4096x4096, .i1⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_cst : Ref sig .tc := ⟨.hbm, 35, rfl⟩
abbrev main_call0_v0 : Ref sig .tc := ⟨.hbm, 36, rfl⟩
abbrev main_v29 : Ref sig .tc := ⟨.hbm, 37, rfl⟩
abbrev main_v30 : Ref sig .tc := ⟨.hbm, 38, rfl⟩
abbrev main_call1_cst : Ref sig .tc := ⟨.hbm, 39, rfl⟩
abbrev main_call1_v0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_call2_cst : Ref sig .tc := ⟨.hbm, 46, rfl⟩
abbrev main_call2_v0 : Ref sig .tc := ⟨.hbm, 47, rfl⟩
abbrev main_v35 : Ref sig .tc := ⟨.hbm, 48, rfl⟩
abbrev main_c : Ref sig .tc := ⟨.hbm, 49, rfl⟩
abbrev main_v36 : Ref sig .tc := ⟨.hbm, 50, rfl⟩
abbrev main_call3_v0 : Ref sig .tc := ⟨.hbm, 51, rfl⟩
abbrev main_call3_c : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_c_0 : Ref sig .tc := ⟨.hbm, 57, rfl⟩
abbrev main_call3_v5 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_call4_v0 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  slices_S8192_S4096_0 : S8192.Slices ![0] S4096
  slices_S8192_S4096_4096 : S8192.Slices ![4096] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts₀]

class Facts : Prop extends Facts₀ where

variable [Facts]
-- ==== Proof.BitsCases.lean ====
/-
  The pair-space [4096, 4096] is visited block by block on an 8 × 8 grid, point (i, j) holding rows
  512·i … 512·i + 511 against columns 512·j … 512·j + 511. Three conditions on the point steer the body:
  the running total is set to zero at (0, 0); a block is summed into it exactly when its first row lies
  before its last column (i ≤ j: the blocks that meet the strict upper triangle); the total is copied to
  the result at (7, 7). This module states the three conditions as the body computes them, decides over
  the 64 points which combinations occur and where, and names the buffers the body runs on.
-/
import proofs.«157306_j28647431864381_2_alg».proof.Proof.Gen.Kernel.Frame
import proofs.«157306_j28647431864381_2_alg».proof.Proof.Gen.Kernel.Skeleton

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid point -/

/-- Both coordinates are zero: the point where the running total is reset. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The block's first row 512·i lies before the end 512·j + 512 of its columns: the block meets the upper triangle. -/
abbrev onUpper (i : grid0.Coords) : Prop := k0_cond2 i = 1#1
/-- Both coordinates are seven: the point where the total is copied out. -/
abbrev atLast (i : grid0.Coords) : Prop := k0_cond3 i = 1#1

/-- In row-major order of the grid: the reset happens at point 0 only, -/
theorem atFirst_iff : ∀ t : Fin cfg0.N, atFirst (grid0.coords t) ↔ t.val = 0 :=
  (by decide +kernel : ∀ t : Fin grid0.N, atFirst (grid0.coords t) ↔ t.val = 0)
/-- a block is summed exactly when its row coordinate is at most its column coordinate, -/
theorem onUpper_iff : ∀ t : Fin cfg0.N, onUpper (grid0.coords t) ↔ t.val / 8 ≤ t.val % 8 :=
  (by decide +kernel : ∀ t : Fin grid0.N, onUpper (grid0.coords t) ↔ t.val / 8 ≤ t.val % 8)
/-- and the copy-out happens at point 63 only. -/
theorem atLast_iff : ∀ t : Fin cfg0.N, atLast (grid0.coords t) ↔ t.val = 63 :=
  (by decide +kernel : ∀ t : Fin grid0.N, atLast (grid0.coords t) ↔ t.val = 63)

/-- The diagonal blocks (0, 0) and (7, 7) are summed. -/
theorem first_upper (t : Fin cfg0.N) (h : atFirst (grid0.coords t)) : onUpper (grid0.coords t) := by
  have h0 := (atFirst_iff t).mp h; exact (onUpper_iff t).mpr (by rw [h0])
theorem last_upper (t : Fin cfg0.N) (h : atLast (grid0.coords t)) : onUpper (grid0.coords t) := by
  have h0 := (atLast_iff t).mp h; exact (onUpper_iff t).mpr (by rw [h0])
/-- The first point is not the last. -/
theorem first_notLast (t : Fin cfg0.N) (h : atFirst (grid0.coords t)) : ¬atLast (grid0.coords t) := by
  have h0 := (atFirst_iff t).mp h; intro h'; have h1 := (atLast_iff t).mp h'; omega
/-- A point that is not the first has a point before it. -/
theorem pos_of_not_first (t : Fin cfg0.N) (h : ¬atFirst (grid0.coords t)) : t.val ≠ 0 :=
  fun h0 => h ((atFirst_iff t).mpr h0)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result's buffer is stored into at the last point only: elsewhere the window is idle and not written back. -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
theorem live4 : ∀ t : Fin cfg0.N, atLast (grid0.coords t) → cfg0.idle 4 (grid0.coords t) = false := by decide +kernel

/-! ## The buffers the body runs on -/

/-- Each window's current staging buffer at point `t`, as the pipeline passes it, and that it is a whole buffer. -/
abbrev ms0 (t : Fin cfg0.N) : Memref sig .tc .vmem S4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running total's buffer: a whole buffer of the kernel's own, kept from point to point. -/
abbrev accM : Memref sig .tc .vmem S1x1 .f32 := Memref.whole cc0_scratch0
/-- The same as a view: what it holds is stated through it. -/
abbrev accV : View sig .tc .vmem S1x1 .f32 := accM.view
/-- The result's staging buffer as a view. -/
abbrev outV : View sig .tc .vmem S1x1 .f32 := (Memref.whole cc0_stg4_0 : Memref sig .tc .vmem S1x1 .f32).view

/-- What the region's invariant holds besides the windows: the running total's buffer at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Notch

end
-- ==== Proof.BitsRunFirst.lean ====
/-
  The body at the grid's first point (0, 0): the running total is set to zero, then the diagonal block's masked
  sum is added to it; the result's buffer is not touched. The run finds what the total's buffer ends with as
  a list of stored pieces.
-/
import proofs.«157306_j28647431864381_2_alg».proof.Proof.BitsCases

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At (0, 0): on whole buffers — the four inputs at their contents, the result's buffer at contents handed back
    untouched, the total's buffer at anything — the body runs to the continuation with the inputs as they
    were and the total's buffer with the pieces `LS` written. -/
noncomputable def runFirst (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : atFirst i) (h2 : onUpper i) (h3 : ¬atLast i)
    (x0 x1 x2 x3 : Vec F S4096 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, fun xo E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Notch

end
-- ==== Proof.BitsRunUpper.lean ====
/-
  The body at a point (i, j) with i ≤ j other than the first and the last: the block's masked sum is added to
  the running total the point before left; the result's buffer is not touched.
-/
import proofs.«157306_j28647431864381_2_alg».proof.Proof.BitsRunFirst

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point: on whole buffers — the inputs at their contents, the result's buffer handed back untouched,
    the total's buffer at `xs` — the body runs to the continuation with the total's buffer with the pieces
    `LS` written. -/
noncomputable def runUpper (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : ¬atLast i)
    (x0 x1 x2 x3 : Vec F S4096 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, fun xo E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Notch

end
-- ==== Proof.BitsRunLower.lean ====
/-
  The body at a point (i, j) with i > j: the block lies below the diagonal, where the mask keeps nothing, and
  the body does nothing — every buffer is handed back as it was.
-/
import proofs.«157306_j28647431864381_2_alg».proof.Proof.BitsRunUpper

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Below the diagonal the body touches no buffer. -/
theorem runLower (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : ¬onUpper i) (h3 : ¬atLast i)
    (x0 x1 x2 x3 : Vec F S4096 .f32) (xs xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs) -∗ K ⟨⟩))
      ⊢ wp frame (wpE (defs₀ (F := F)) Variants.none c none) E (cc0__notch_kernel i arg2 harg2 arg3 harg3 arg4 harg4 arg5 harg5 arg6 harg6 arg7 harg7) K := by
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact HS

end Cert.Kernel.Notch

end
-- ==== Proof.BitsRunLast.lean ====
/-
  The body at the grid's last point (7, 7): the diagonal block's masked sum is added to the running total, and
  the total is copied into the result's buffer.
-/
import proofs.«157306_j28647431864381_2_alg».proof.Proof.BitsRunLower

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At (7, 7): on whole buffers — the inputs at their contents, the result's buffer at anything, the total's
    buffer at `xs` — the body runs to the continuation with the result's buffer with the pieces `L4` written
    and the total's with `LS`. -/
noncomputable def runLast (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : atLast i)
    (x0 x1 x2 x3 : Vec F S4096 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, ?_, fun E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Notch

end
-- ==== Proof.BitsBody.lean ====
/-
  The frame of the program: every execution of the region ends, faults nowhere, and leaves the argument arrays
  as they were. The running total lives in a buffer of the kernel's own that is kept from grid point to grid
  point, so the proof carries what it holds: after point n it is what the body's case at n makes of what point
  n - 1 left (at point 0 the body resets it first). The result's buffer is stored into at the last point only.
-/
import proofs.«157306_j28647431864381_2_alg».proof.Proof.BitsRunLast

set_option maxRecDepth 16384

noncomputable section

namespace Cert.Kernel.Notch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a point of the grid, on the buffers the pipeline passes there -/

/-- The run at the first point, on the point's buffers and the inputs' blocks there. -/
abbrev firstAt (c : Dev nD) (t : Fin cfg0.N) (h1 : atFirst (grid0.coords t)) :=
  runFirst (F := F) c (grid0.coords t) (ms0 t) (hs0 t) (ms1 t) (hs1 t) (ms2 t) (hs2 t) (ms3 t) (hs3 t) (ms4 t) (hs4 t) accM (Memref.isWhole_whole _) h1 (first_upper t h1) (first_notLast t h1) (iblk m c 0 t) (iblk m c 1 t) (iblk m c 2 t) (iblk m c 3 t)
/-- The run at a summed point that is neither first nor last, over what the point before left in the total. -/
abbrev upperAt (c : Dev nD) (t : Fin cfg0.N) (h1 : ¬atFirst (grid0.coords t)) (h2 : onUpper (grid0.coords t)) (h3 : ¬atLast (grid0.coords t))
    (xs : Vec F S1x1 .f32) :=
  runUpper (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) xs
/-- The run at the last point. -/
abbrev lastAt (c : Dev nD) (t : Fin cfg0.N) (h1 : ¬atFirst (grid0.coords t)) (h2 : onUpper (grid0.coords t)) (h3 : atLast (grid0.coords t))
    (xs : Vec F S1x1 .f32) :=
  runLast (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) xs

/-- Each run's stores into the one-element total (and, at the last point, into the one-element result) cover it. -/
theorem cover_first (c : Dev nD) (t : Fin cfg0.N) (h1 : atFirst (grid0.coords t)) (y : S1x1.Idx) :
    ∃ pc ∈ (firstAt m c t h1).1, y ∈ pc.1.set :=
  View.cover_of_tiledL (firstAt m c t h1).1 S1x1.size (by sl_kernel_rfl) y
theorem cover_upper (c : Dev nD) (t : Fin cfg0.N) (h1 : ¬atFirst (grid0.coords t)) (h2 : onUpper (grid0.coords t)) (h3 : ¬atLast (grid0.coords t))
    (xs : Vec F S1x1 .f32) (y : S1x1.Idx) :
    ∃ pc ∈ (upperAt m c t h1 h2 h3 xs).1, y ∈ pc.1.set :=
  View.cover_of_tiledL (upperAt m c t h1 h2 h3 xs).1 S1x1.size (by sl_kernel_rfl) y
theorem cover_last_acc (c : Dev nD) (t : Fin cfg0.N) (h1 : ¬atFirst (grid0.coords t)) (h2 : onUpper (grid0.coords t)) (h3 : atLast (grid0.coords t))
    (xs : Vec F S1x1 .f32) (y : S1x1.Idx) :
    ∃ pc ∈ (lastAt m c t h1 h2 h3 xs).2.1, y ∈ pc.1.set :=
  View.cover_of_tiledL (lastAt m c t h1 h2 h3 xs).2.1 S1x1.size (by sl_kernel_rfl) y
theorem cover_last_out (c : Dev nD) (t : Fin cfg0.N) (h1 : ¬atFirst (grid0.coords t)) (h2 : onUpper (grid0.coords t)) (h3 : atLast (grid0.coords t))
    (xs : Vec F S1x1 .f32) (y : S1x1.Idx) :
    ∃ pc ∈ (lastAt m c t h1 h2 h3 xs).1, y ∈ pc.1.set :=
  View.cover_of_tiledL (lastAt m c t h1 h2 h3 xs).1 S1x1.size (by sl_kernel_rfl) y

/-! ## What the result's buffer and the running total hold after each point -/

/-- One point's effect: given what the total held before (`xs`), the pair (result's buffer, total) after the body
    at `t` — the case's stores read back. Where the body stores nothing into the result's buffer the first
    component is a placeholder nothing consults (the window is idle there and not written back). -/
def stepAt (c : Dev nD) (t : Fin cfg0.N) (xs : Vec F S1x1 .f32) : Vec F S1x1 .f32 × Vec F S1x1 .f32 :=
  if h2 : onUpper (grid0.coords t) then
    if h1 : atFirst (grid0.coords t) then
      (xs, accV.read (Elt F) (accV.writes (Elt F) accV.junk (firstAt m c t h1).1))
    else if h3 : atLast (grid0.coords t) then
      (outV.read (Elt F) (outV.writes (Elt F) outV.junk (lastAt m c t h1 h2 h3 xs).1),
       accV.read (Elt F) (accV.writes (Elt F) accV.junk (lastAt m c t h1 h2 h3 xs).2.1))
    else
      (xs, accV.read (Elt F) (accV.writes (Elt F) accV.junk (upperAt m c t h1 h2 h3 xs).1))
  else (xs, xs)

/-- THE ACCUMULATION: the pair after the body at position `n`, by recursion on the position. -/
def outsAt (c : Dev nD) : (n : ℕ) → n < cfg0.N → Vec F S1x1 .f32 × Vec F S1x1 .f32
  | 0, hn => stepAt m c ⟨0, hn⟩ (accV.read (Elt F) accV.junk)
  | n + 1, hn => stepAt m c ⟨n + 1, hn⟩ (outsAt c n (Nat.lt_of_succ_lt hn)).2

/-- After a point that is not the first: that point's step over what the point before left. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2 := by
  obtain ⟨n, hn⟩ := t
  cases n with
  | zero => exact absurd rfl hz
  | succ n => rfl
/-- After the first point: its step (which resets the total, whatever it held). -/
theorem outsAt_zero (c : Dev nD) (t : Fin cfg0.N) (hz : t.val = 0) :
    outsAt m c t.val t.isLt = stepAt m c t (accV.read (Elt F) accV.junk) := by
  obtain ⟨n, hn⟩ := t
  cases n with
  | zero => rfl
  | succ n => exact absurd hz (Nat.succ_ne_zero n)

/-- The region's invariant before position `n`: before the first point the total's buffer holds anything; afterwards
    what the point before left in it. The generator register is at some state throughout. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the
    result's at the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]

/-- The step's second component in each case. -/
theorem step_first (c : Dev nD) (t : Fin cfg0.N) (xs : Vec F S1x1 .f32) (h2 : onUpper (grid0.coords t)) (h1 : atFirst (grid0.coords t)) :
    (stepAt m c t xs).2 = accV.read (Elt F) (accV.writes (Elt F) accV.junk (firstAt m c t h1).1) := by
  unfold stepAt; rw [dif_pos h2, dif_pos h1]
theorem step_upper (c : Dev nD) (t : Fin cfg0.N) (xs : Vec F S1x1 .f32) (h2 : onUpper (grid0.coords t)) (h1 : ¬atFirst (grid0.coords t))
    (h3 : ¬atLast (grid0.coords t)) :
    (stepAt m c t xs).2 = accV.read (Elt F) (accV.writes (Elt F) accV.junk (upperAt m c t h1 h2 h3 xs).1) := by
  unfold stepAt; rw [dif_pos h2, dif_neg h1, dif_neg h3]
theorem step_last_acc (c : Dev nD) (t : Fin cfg0.N) (xs : Vec F S1x1 .f32) (h2 : onUpper (grid0.coords t)) (h1 : ¬atFirst (grid0.coords t))
    (h3 : atLast (grid0.coords t)) :
    (stepAt m c t xs).2 = accV.read (Elt F) (accV.writes (Elt F) accV.junk (lastAt m c t h1 h2 h3 xs).2.1) := by
  unfold stepAt; rw [dif_pos h2, dif_neg h1, dif_pos h3]
theorem step_last_out (c : Dev nD) (t : Fin cfg0.N) (xs : Vec F S1x1 .f32) (h2 : onUpper (grid0.coords t)) (h1 : ¬atFirst (grid0.coords t))
    (h3 : atLast (grid0.coords t)) :
    (stepAt m c t xs).1 = outV.read (Elt F) (outV.writes (Elt F) outV.junk (lastAt m c t h1 h2 h3 xs).1) := by
  unfold stepAt; rw [dif_pos h2, dif_neg h1, dif_pos h3]
theorem step_lower (c : Dev nD) (t : Fin cfg0.N) (xs : Vec F S1x1 .f32) (h2 : ¬onUpper (grid0.coords t)) :
    (stepAt m c t xs).2 = xs := by
  unfold stepAt; rw [dif_neg h2]

set_option maxHeartbeats 4800000 in
/-- The body at any point: the inputs' buffers hold their blocks; the three conditions say which case the point is
    in; the invariant hands the body the total's buffer at what the point before left (at anything at the
    first point) and takes it back at this point's contents; where the body stores nothing into the result's
    buffer it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  by_cases h2 : onUpper (grid0.coords t)
  · by_cases h1 : atFirst (grid0.coords t)
    · have h3 := first_notLast t h1
      have hz := (atFirst_iff t).mp h1
      rw [Dat.leavesExact_idle (dats m 0 c) 4 t (idle4 t h3) (noFlush4 t h3)]
      rw [outsAt_zero m c t hz, step_first m c t _ h2 h1]
      rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((firstAt m c t h1).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first m c t h1)
        iexact Hg
      isplitl [Ho]; · iexact Ho
      isplitl [H0]; · iexact H0
      isplitl [H1]; · iexact H1
      isplitl [H2]; · iexact H2
      isplitl [H3]; · iexact H3
      iexists _; iexact H4
    · have hz := pos_of_not_first t h1
      by_cases h3 : atLast (grid0.coords t)
      · rw [show (dats m 0 c).leavesExact 4 t = owns (c : Thread nD τ) (ms4 t) fullShare ((dats m 0 c).after 4 t) from by
          unfold Dat.leavesExact; rw [live4 t h3], after4]
        rw [outsAt_pos m c t hz, step_last_acc m c t _ h2 h1 h3, step_last_out m c t _ h2 h1 h3]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((lastAt m c t h1 h2 h3 _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (cover_last_acc m c t h1 h2 h3 _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_last_out m c t h1 h2 h3 _)
      · rw [Dat.leavesExact_idle (dats m 0 c) 4 t (idle4 t h3) (noFlush4 t h3)]
        rw [outsAt_pos m c t hz, step_upper m c t _ h2 h1 h3]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((upperAt m c t h1 h2 h3 _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (cover_upper m c t h1 h2 h3 _)
          iexact Hg
        isplitl [Ho]; · iexact Ho
        isplitl [H0]; · iexact H0
        isplitl [H1]; · iexact H1
        isplitl [H2]; · iexact H2
        isplitl [H3]; · iexact H3
        iexists _; iexact H4
  · have h1 : ¬atFirst (grid0.coords t) := fun h => h2 (first_upper t h)
    have h3 : ¬atLast (grid0.coords t) := fun h => h2 (last_upper t h)
    have hz := pos_of_not_first t h1
    rw [Dat.leavesExact_idle (dats m 0 c) 4 t (idle4 t h3) (noFlush4 t h3)]
    rw [outsAt_pos m c t hz, step_lower m c t _ h2]
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply (runLower (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the total holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has each array of the pipeline at
    what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance of the float type. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Notch

end
-- ==== Proof.IdealCases.lean ====
/-
  The pair-space [4096, 4096] is visited block by block on an 8 × 8 grid, point (i, j) holding rows
  512·i … 512·i + 511 against columns 512·j … 512·j + 511. Three conditions on the point steer the body:
  the running total is set to zero at (0, 0); a block is summed into it exactly when its first row lies
  before its last column (i ≤ j: the blocks that meet the strict upper triangle); the total is copied to
  the result at (7, 7). This module states the three conditions as the body computes them, decides over
  the 64 points which combinations occur and where, and names the buffers the body runs on.
-/
import proofs.«157306_j28647431864381_2_alg».proof.Proof.Gen.KernelIdeal.Frame
import proofs.«157306_j28647431864381_2_alg».proof.Proof.Gen.KernelIdeal.Skeleton

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid point -/

/-- Both coordinates are zero: the point where the running total is reset. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The block's first row 512·i lies before the end 512·j + 512 of its columns: the block meets the upper triangle. -/
abbrev onUpper (i : grid0.Coords) : Prop := k0_cond2 i = 1#1
/-- Both coordinates are seven: the point where the total is copied out. -/
abbrev atLast (i : grid0.Coords) : Prop := k0_cond3 i = 1#1

/-- In row-major order of the grid: the reset happens at point 0 only, -/
theorem atFirst_iff : ∀ t : Fin cfg0.N, atFirst (grid0.coords t) ↔ t.val = 0 :=
  (by decide +kernel : ∀ t : Fin grid0.N, atFirst (grid0.coords t) ↔ t.val = 0)
/-- a block is summed exactly when its row coordinate is at most its column coordinate, -/
theorem onUpper_iff : ∀ t : Fin cfg0.N, onUpper (grid0.coords t) ↔ t.val / 8 ≤ t.val % 8 :=
  (by decide +kernel : ∀ t : Fin grid0.N, onUpper (grid0.coords t) ↔ t.val / 8 ≤ t.val % 8)
/-- and the copy-out happens at point 63 only. -/
theorem atLast_iff : ∀ t : Fin cfg0.N, atLast (grid0.coords t) ↔ t.val = 63 :=
  (by decide +kernel : ∀ t : Fin grid0.N, atLast (grid0.coords t) ↔ t.val = 63)

/-- The diagonal blocks (0, 0) and (7, 7) are summed. -/
theorem first_upper (t : Fin cfg0.N) (h : atFirst (grid0.coords t)) : onUpper (grid0.coords t) := by
  have h0 := (atFirst_iff t).mp h; exact (onUpper_iff t).mpr (by rw [h0])
theorem last_upper (t : Fin cfg0.N) (h : atLast (grid0.coords t)) : onUpper (grid0.coords t) := by
  have h0 := (atLast_iff t).mp h; exact (onUpper_iff t).mpr (by rw [h0])
/-- The first point is not the last. -/
theorem first_notLast (t : Fin cfg0.N) (h : atFirst (grid0.coords t)) : ¬atLast (grid0.coords t) := by
  have h0 := (atFirst_iff t).mp h; intro h'; have h1 := (atLast_iff t).mp h'; omega
/-- A point that is not the first has a point before it. -/
theorem pos_of_not_first (t : Fin cfg0.N) (h : ¬atFirst (grid0.coords t)) : t.val ≠ 0 :=
  fun h0 => h ((atFirst_iff t).mpr h0)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result's buffer is stored into at the last point only: elsewhere the window is idle and not written back. -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
theorem live4 : ∀ t : Fin cfg0.N, atLast (grid0.coords t) → cfg0.idle 4 (grid0.coords t) = false := by decide +kernel

/-! ## The buffers the body runs on -/

/-- Each window's current staging buffer at point `t`, as the pipeline passes it, and that it is a whole buffer. -/
abbrev ms0 (t : Fin cfg0.N) : Memref sig .tc .vmem S4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running total's buffer: a whole buffer of the kernel's own, kept from point to point. -/
abbrev accM : Memref sig .tc .vmem S1x1 .f32 := Memref.whole cc0_scratch0
/-- The same as a view: what it holds is stated through it. -/
abbrev accV : View sig .tc .vmem S1x1 .f32 := accM.view
/-- The result's staging buffer as a view. -/
abbrev outV : View sig .tc .vmem S1x1 .f32 := (Memref.whole cc0_stg4_0 : Memref sig .tc .vmem S1x1 .f32).view

/-- What the region's invariant holds besides the windows: the running total's buffer at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Notch

end
-- ==== Proof.IdealRunFirst.lean ====
/-
  The body at the grid's first point (0, 0): the running total is set to zero, then the diagonal block's masked
  sum is added to it; the result's buffer is not touched. The run finds what the total's buffer ends with as
  a list of stored pieces.
-/
import proofs.«157306_j28647431864381_2_alg».proof.Proof.IdealCases

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At (0, 0): on whole buffers — the four inputs at their contents, the result's buffer at contents handed back
    untouched, the total's buffer at anything — the body runs to the continuation with the inputs as they
    were and the total's buffer with the pieces `LS` written. -/
noncomputable def runFirst (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : atFirst i) (h2 : onUpper i) (h3 : ¬atLast i)
    (x0 x1 x2 x3 : Vec F S4096 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, fun xo E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Notch

end
-- ==== Proof.IdealRunUpper.lean ====
/-
  The body at a point (i, j) with i ≤ j other than the first and the last: the block's masked sum is added to
  the running total the point before left; the result's buffer is not touched.
-/
import proofs.«157306_j28647431864381_2_alg».proof.Proof.IdealRunFirst

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point: on whole buffers — the inputs at their contents, the result's buffer handed back untouched,
    the total's buffer at `xs` — the body runs to the continuation with the total's buffer with the pieces
    `LS` written. -/
noncomputable def runUpper (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : ¬atLast i)
    (x0 x1 x2 x3 : Vec F S4096 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, fun xo E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Notch

end
-- ==== Proof.IdealRunLower.lean ====
/-
  The body at a point (i, j) with i > j: the block lies below the diagonal, where the mask keeps nothing, and
  the body does nothing — every buffer is handed back as it was.
-/
import proofs.«157306_j28647431864381_2_alg».proof.Proof.IdealRunUpper

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Below the diagonal the body touches no buffer. -/
theorem runLower (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : ¬onUpper i) (h3 : ¬atLast i)
    (x0 x1 x2 x3 : Vec F S4096 .f32) (xs xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs) -∗ K ⟨⟩))
      ⊢ wp frame (wpE (defs₀ (F := F)) Variants.none c none) E (cc0__notch_kernel i arg2 harg2 arg3 harg3 arg4 harg4 arg5 harg5 arg6 harg6 arg7 harg7) K := by
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact HS

end Cert.KernelIdeal.Notch

end
-- ==== Proof.IdealRunLast.lean ====
/-
  The body at the grid's last point (7, 7): the diagonal block's masked sum is added to the running total, and
  the total is copied into the result's buffer.
-/
import proofs.«157306_j28647431864381_2_alg».proof.Proof.IdealRunLower

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At (7, 7): on whole buffers — the inputs at their contents, the result's buffer at anything, the total's
    buffer at `xs` — the body runs to the continuation with the result's buffer with the pieces `L4` written
    and the total's with `LS`. -/
noncomputable def runLast (c : Dev nD) (i : grid0.Coords) (arg2 : Memref sig .tc .vmem S4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : atLast i)
    (x0 x1 x2 x3 : Vec F S4096 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__notch_kernel i arg2 harg2 arg3 harg3 arg4 harg4 arg5 harg5 arg6 harg6 arg7 harg7) K } := by
  refine ⟨?_, ?_, fun E K => ?run⟩
  case run =>
    simp only [cc0__notch_kernel_eq_skeleton]; unfold cc0__notch_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Notch

end
-- ==== Proof.IdealBody.lean ====
/-
  The frame of the program: every execution of the region ends, faults nowhere, and leaves the argument arrays
  as they were. The running total lives in a buffer of the kernel's own that is kept from grid point to grid
  point, so the proof carries what it holds: after point n it is what the body's case at n makes of what point
  n - 1 left (at point 0 the body resets it first). The result's buffer is stored into at the last point only.
-/
import proofs.«157306_j28647431864381_2_alg».proof.Proof.IdealRunLast

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a point of the grid, on the buffers the pipeline passes there -/

/-- The run at the first point, on the point's buffers and the inputs' blocks there. -/
abbrev firstAt (c : Dev nD) (t : Fin cfg0.N) (h1 : atFirst (grid0.coords t)) :=
  runFirst (F := F) c (grid0.coords t) (ms0 t) (hs0 t) (ms1 t) (hs1 t) (ms2 t) (hs2 t) (ms3 t) (hs3 t) (ms4 t) (hs4 t) accM (Memref.isWhole_whole _) h1 (first_upper t h1) (first_notLast t h1) (iblk m c 0 t) (iblk m c 1 t) (iblk m c 2 t) (iblk m c 3 t)
/-- The run at a summed point that is neither first nor last, over what the point before left in the total. -/
abbrev upperAt (c : Dev nD) (t : Fin cfg0.N) (h1 : ¬atFirst (grid0.coords t)) (h2 : onUpper (grid0.coords t)) (h3 : ¬atLast (grid0.coords t))
    (xs : Vec F S1x1 .f32) :=
  runUpper (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) xs
/-- The run at the last point. -/
abbrev lastAt (c : Dev nD) (t : Fin cfg0.N) (h1 : ¬atFirst (grid0.coords t)) (h2 : onUpper (grid0.coords t)) (h3 : atLast (grid0.coords t))
    (xs : Vec F S1x1 .f32) :=
  runLast (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) xs

/-- Each run's stores into the one-element total (and, at the last point, into the one-element result) cover it. -/
theorem cover_first (c : Dev nD) (t : Fin cfg0.N) (h1 : atFirst (grid0.coords t)) (y : S1x1.Idx) :
    ∃ pc ∈ (firstAt m c t h1).1, y ∈ pc.1.set :=
  View.cover_of_tiledL (firstAt m c t h1).1 S1x1.size (by sl_kernel_rfl) y
theorem cover_upper (c : Dev nD) (t : Fin cfg0.N) (h1 : ¬atFirst (grid0.coords t)) (h2 : onUpper (grid0.coords t)) (h3 : ¬atLast (grid0.coords t))
    (xs : Vec F S1x1 .f32) (y : S1x1.Idx) :
    ∃ pc ∈ (upperAt m c t h1 h2 h3 xs).1, y ∈ pc.1.set :=
  View.cover_of_tiledL (upperAt m c t h1 h2 h3 xs).1 S1x1.size (by sl_kernel_rfl) y
theorem cover_last_acc (c : Dev nD) (t : Fin cfg0.N) (h1 : ¬atFirst (grid0.coords t)) (h2 : onUpper (grid0.coords t)) (h3 : atLast (grid0.coords t))
    (xs : Vec F S1x1 .f32) (y : S1x1.Idx) :
    ∃ pc ∈ (lastAt m c t h1 h2 h3 xs).2.1, y ∈ pc.1.set :=
  View.cover_of_tiledL (lastAt m c t h1 h2 h3 xs).2.1 S1x1.size (by sl_kernel_rfl) y
theorem cover_last_out (c : Dev nD) (t : Fin cfg0.N) (h1 : ¬atFirst (grid0.coords t)) (h2 : onUpper (grid0.coords t)) (h3 : atLast (grid0.coords t))
    (xs : Vec F S1x1 .f32) (y : S1x1.Idx) :
    ∃ pc ∈ (lastAt m c t h1 h2 h3 xs).1, y ∈ pc.1.set :=
  View.cover_of_tiledL (lastAt m c t h1 h2 h3 xs).1 S1x1.size (by sl_kernel_rfl) y

/-! ## What the result's buffer and the running total hold after each point -/

/-- One point's effect: given what the total held before (`xs`), the pair (result's buffer, total) after the body
    at `t` — the case's stores read back. Where the body stores nothing into the result's buffer the first
    component is a placeholder nothing consults (the window is idle there and not written back). -/
def stepAt (c : Dev nD) (t : Fin cfg0.N) (xs : Vec F S1x1 .f32) : Vec F S1x1 .f32 × Vec F S1x1 .f32 :=
  if h2 : onUpper (grid0.coords t) then
    if h1 : atFirst (grid0.coords t) then
      (xs, accV.read (Elt F) (accV.writes (Elt F) accV.junk (firstAt m c t h1).1))
    else if h3 : atLast (grid0.coords t) then
      (outV.read (Elt F) (outV.writes (Elt F) outV.junk (lastAt m c t h1 h2 h3 xs).1),
       accV.read (Elt F) (accV.writes (Elt F) accV.junk (lastAt m c t h1 h2 h3 xs).2.1))
    else
      (xs, accV.read (Elt F) (accV.writes (Elt F) accV.junk (upperAt m c t h1 h2 h3 xs).1))
  else (xs, xs)

/-- THE ACCUMULATION: the pair after the body at position `n`, by recursion on the position. -/
def outsAt (c : Dev nD) : (n : ℕ) → n < cfg0.N → Vec F S1x1 .f32 × Vec F S1x1 .f32
  | 0, hn => stepAt m c ⟨0, hn⟩ (accV.read (Elt F) accV.junk)
  | n + 1, hn => stepAt m c ⟨n + 1, hn⟩ (outsAt c n (Nat.lt_of_succ_lt hn)).2

/-- After a point that is not the first: that point's step over what the point before left. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2 := by
  obtain ⟨n, hn⟩ := t
  cases n with
  | zero => exact absurd rfl hz
  | succ n => rfl
/-- After the first point: its step (which resets the total, whatever it held). -/
theorem outsAt_zero (c : Dev nD) (t : Fin cfg0.N) (hz : t.val = 0) :
    outsAt m c t.val t.isLt = stepAt m c t (accV.read (Elt F) accV.junk) := by
  obtain ⟨n, hn⟩ := t
  cases n with
  | zero => rfl
  | succ n => exact absurd hz (Nat.succ_ne_zero n)

/-- The region's invariant before position `n`: before the first point the total's buffer holds anything; afterwards
    what the point before left in it. The generator register is at some state throughout. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the
    result's at the accumulation's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]

/-- The step's second component in each case. -/
theorem step_first (c : Dev nD) (t : Fin cfg0.N) (xs : Vec F S1x1 .f32) (h2 : onUpper (grid0.coords t)) (h1 : atFirst (grid0.coords t)) :
    (stepAt m c t xs).2 = accV.read (Elt F) (accV.writes (Elt F) accV.junk (firstAt m c t h1).1) := by
  unfold stepAt; rw [dif_pos h2, dif_pos h1]
theorem step_upper (c : Dev nD) (t : Fin cfg0.N) (xs : Vec F S1x1 .f32) (h2 : onUpper (grid0.coords t)) (h1 : ¬atFirst (grid0.coords t))
    (h3 : ¬atLast (grid0.coords t)) :
    (stepAt m c t xs).2 = accV.read (Elt F) (accV.writes (Elt F) accV.junk (upperAt m c t h1 h2 h3 xs).1) := by
  unfold stepAt; rw [dif_pos h2, dif_neg h1, dif_neg h3]
theorem step_last_acc (c : Dev nD) (t : Fin cfg0.N) (xs : Vec F S1x1 .f32) (h2 : onUpper (grid0.coords t)) (h1 : ¬atFirst (grid0.coords t))
    (h3 : atLast (grid0.coords t)) :
    (stepAt m c t xs).2 = accV.read (Elt F) (accV.writes (Elt F) accV.junk (lastAt m c t h1 h2 h3 xs).2.1) := by
  unfold stepAt; rw [dif_pos h2, dif_neg h1, dif_pos h3]
theorem step_last_out (c : Dev nD) (t : Fin cfg0.N) (xs : Vec F S1x1 .f32) (h2 : onUpper (grid0.coords t)) (h1 : ¬atFirst (grid0.coords t))
    (h3 : atLast (grid0.coords t)) :
    (stepAt m c t xs).1 = outV.read (Elt F) (outV.writes (Elt F) outV.junk (lastAt m c t h1 h2 h3 xs).1) := by
  unfold stepAt; rw [dif_pos h2, dif_neg h1, dif_pos h3]
theorem step_lower (c : Dev nD) (t : Fin cfg0.N) (xs : Vec F S1x1 .f32) (h2 : ¬onUpper (grid0.coords t)) :
    (stepAt m c t xs).2 = xs := by
  unfold stepAt; rw [dif_neg h2]

set_option maxHeartbeats 4800000 in
/-- The body at any point: the inputs' buffers hold their blocks; the three conditions say which case the point is
    in; the invariant hands the body the total's buffer at what the point before left (at anything at the
    first point) and takes it back at this point's contents; where the body stores nothing into the result's
    buffer it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  by_cases h2 : onUpper (grid0.coords t)
  · by_cases h1 : atFirst (grid0.coords t)
    · have h3 := first_notLast t h1
      have hz := (atFirst_iff t).mp h1
      rw [Dat.leavesExact_idle (dats m 0 c) 4 t (idle4 t h3) (noFlush4 t h3)]
      rw [outsAt_zero m c t hz, step_first m c t _ h2 h1]
      rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((firstAt m c t h1).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first m c t h1)
        iexact Hg
      isplitl [Ho]; · iexact Ho
      isplitl [H0]; · iexact H0
      isplitl [H1]; · iexact H1
      isplitl [H2]; · iexact H2
      isplitl [H3]; · iexact H3
      iexists _; iexact H4
    · have hz := pos_of_not_first t h1
      by_cases h3 : atLast (grid0.coords t)
      · rw [show (dats m 0 c).leavesExact 4 t = owns (c : Thread nD τ) (ms4 t) fullShare ((dats m 0 c).after 4 t) from by
          unfold Dat.leavesExact; rw [live4 t h3], after4]
        rw [outsAt_pos m c t hz, step_last_acc m c t _ h2 h1 h3, step_last_out m c t _ h2 h1 h3]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((lastAt m c t h1 h2 h3 _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (cover_last_acc m c t h1 h2 h3 _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_last_out m c t h1 h2 h3 _)
      · rw [Dat.leavesExact_idle (dats m 0 c) 4 t (idle4 t h3) (noFlush4 t h3)]
        rw [outsAt_pos m c t hz, step_upper m c t _ h2 h1 h3]
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((upperAt m c t h1 h2 h3 _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (cover_upper m c t h1 h2 h3 _)
          iexact Hg
        isplitl [Ho]; · iexact Ho
        isplitl [H0]; · iexact H0
        isplitl [H1]; · iexact H1
        isplitl [H2]; · iexact H2
        isplitl [H3]; · iexact H3
        iexists _; iexact H4
  · have h1 : ¬atFirst (grid0.coords t) := fun h => h2 (first_upper t h)
    have h3 : ¬atLast (grid0.coords t) := fun h => h2 (last_upper t h)
    have hz := pos_of_not_first t h1
    rw [Dat.leavesExact_idle (dats m 0 c) 4 t (idle4 t h3) (noFlush4 t h3)]
    rw [outsAt_pos m c t hz, step_lower m c t _ h2]
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply (runLower (F := F) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the total holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has each array of the pipeline at
    what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance of the float type. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Notch

end
-- ==== Proof.IdealPieces.lean ====
/-
  What the body's stores leave, named: at a summed point (i, j) the running total ends at the body's arithmetic
  (its payloads) applied to eight cuts of the four input arrays — entries 512·i … 512·i + 511 (the block's rows)
  and 512·j … 512·j + 511 (its columns) of each — and to the total it found, which at the first point is the
  zero it has just stored. At the last point the result's buffer receives that same value.
-/
import proofs.«157306_j28647431864381_2_alg».proof.Proof.IdealBody
import Idealize.ShloMosaic.Lib.Pipeline.Value

set_option maxRecDepth 16384

noncomputable section

namespace Cert.KernelIdeal.Notch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The unit-stride cut of 512 entries of an array of 4096 at the block's row offset, -/
def rowCut (i : grid0.Coords) (h2 : onUpper i) (X : Vec F S4096 .f32) : Vec F S512 .f32 :=
  View.ld X (Rect.unit (s := S4096) (k0_off1 i) S512.size (Facts₀.k0_off1_inb i h2))
/-- and at its column offset. -/
def colCut (i : grid0.Coords) (h2 : onUpper i) (X : Vec F S4096 .f32) : Vec F S512 .f32 :=
  View.ld X (Rect.unit (s := S4096) (k0_off2 i) S512.size (Facts₀.k0_off2_inb i h2))

/-- The total after a summed point: the body's arithmetic on the block's row and column cuts of the four arrays,
    added to the total found (`xs`). -/
def blockVal (i : grid0.Coords) (h2 : onUpper i) (X0 X1 X2 X3 : Vec F S4096 .f32) (xs : Vec F S1x1 .f32) : Vec F S1x1 .f32 :=
  k0_pay2 i (k0_pay3 (rowCut i h2 X0) (colCut i h2 X0) (rowCut i h2 X1) (colCut i h2 X1)
    (rowCut i h2 X2) (colCut i h2 X2) (rowCut i h2 X3) (colCut i h2 X3)) xs

theorem origin_zero : ((![0, 0] : Fin S1x1.rank → ℕ)) = fun _ => 0 := by
  funext a; fin_cases a <;> rfl

/-- The kernel's own one-element buffer, written whole and read whole, gives back what was written. -/
theorem acc_read_unread (xs : Vec F S1x1 .f32) :
    View.read (Elt F) (View.whole cc0_scratch0 : View sig .tc .vmem S1x1 .f32) ((Memref.isWhole_whole cc0_scratch0).unread xs) = xs :=
  (Memref.isWhole_whole cc0_scratch0).read_unread xs

theorem left_first (c : Dev nD) (t : Fin cfg0.N) (h1 : atFirst (grid0.coords t)) :
    accV.read (Elt F) (accV.writes (Elt F) accV.junk (firstAt m c t h1).1)
      = blockVal (grid0.coords t) (first_upper t h1) (iblk m c 0 t) (iblk m c 1 t) (iblk m c 2 t) (iblk m c 3 t) (k0_pay1 (F := F)) := by
  rw [View.read_writes_eq_canon _ _ _ (cover_first m c t h1)]
  unfold firstAt runFirst
  dsimp only
  sl_unfold_words
  rw [View.canon_cons_unit_zero origin_zero]
  simp only [View.readAt_eq_ld, Memref.IsWhole.read_unread, acc_read_unread, View.readCov_unit_zero (S := S1x1) _ origin_zero, View.ld_unit_zero (S := S1x1) origin_zero]
  rfl

theorem left_upper (c : Dev nD) (t : Fin cfg0.N) (h1 : ¬atFirst (grid0.coords t)) (h2 : onUpper (grid0.coords t)) (h3 : ¬atLast (grid0.coords t))
    (xs : Vec F S1x1 .f32) :
    accV.read (Elt F) (accV.writes (Elt F) accV.junk (upperAt m c t h1 h2 h3 xs).1)
      = blockVal (grid0.coords t) h2 (iblk m c 0 t) (iblk m c 1 t) (iblk m c 2 t) (iblk m c 3 t) xs := by
  rw [View.read_writes_eq_canon _ _ _ (cover_upper m c t h1 h2 h3 xs)]
  unfold upperAt runUpper
  dsimp only
  sl_unfold_words
  rw [View.canon_unit_zero origin_zero]
  simp only [View.readAt_eq_ld, Memref.IsWhole.read_unread, acc_read_unread, View.ld_unit_zero (S := S1x1) origin_zero]
  rfl

theorem left_last_acc (c : Dev nD) (t : Fin cfg0.N) (h1 : ¬atFirst (grid0.coords t)) (h2 : onUpper (grid0.coords t)) (h3 : atLast (grid0.coords t))
    (xs : Vec F S1x1 .f32) :
    accV.read (Elt F) (accV.writes (Elt F) accV.junk (lastAt m c t h1 h2 h3 xs).2.1)
      = blockVal (grid0.coords t) h2 (iblk m c 0 t) (iblk m c 1 t) (iblk m c 2 t) (iblk m c 3 t) xs := by
  rw [View.read_writes_eq_canon _ _ _ (cover_last_acc m c t h1 h2 h3 xs)]
  unfold lastAt runLast
  dsimp only
  sl_unfold_words
  rw [View.canon_unit_zero origin_zero]
  simp only [View.readAt_eq_ld, Memref.IsWhole.read_unread, acc_read_unread, View.ld_unit_zero (S := S1x1) origin_zero]
  rfl

theorem left_last_out (c : Dev nD) (t : Fin cfg0.N) (h1 : ¬atFirst (grid0.coords t)) (h2 : onUpper (grid0.coords t)) (h3 : atLast (grid0.coords t))
    (xs : Vec F S1x1 .f32) :
    outV.read (Elt F) (outV.writes (Elt F) outV.junk (lastAt m c t h1 h2 h3 xs).1)
      = blockVal (grid0.coords t) h2 (iblk m c 0 t) (iblk m c 1 t) (iblk m c 2 t) (iblk m c 3 t) xs := by
  rw [View.read_writes_eq_canon _ _ _ (cover_last_out m c t h1 h2 h3 xs)]
  unfold lastAt runLast
  dsimp only
  sl_unfold_words
  rw [View.canon_unit_zero origin_zero]
  simp only [View.readAt_eq_ld, Memref.IsWhole.read_unread, acc_read_unread, View.readCov_unit_zero (S := S1x1) _ origin_zero, View.ld_unit_zero (S := S1x1) origin_zero]
  rfl

end Cert.KernelIdeal.Notch

end
-- ==== Proof.NotchSpec.lean ====
/-
  THE SPECIFICATION. Four arrays of 4096 extended reals — centres x, y and extents sx, sy of 4096 boxes — give, for a
  pair p < q, the squared shortfall of the boxes' edge-to-edge gap below 2:
      gx = max (|x p − x q| − (sx p + sx q)/2) 0,  gy likewise,  pen = max (2 − (gx + gy)) 0,  term = pen².
  The result is the sum of the terms over all pairs p < q, written as the sum over ALL (p, q) of the term masked to 0
  where p ≥ q. The law proved here regroups that double sum by 512 × 512 blocks taken in row-major order of an
  8 × 8 grid, skipping the blocks strictly below the diagonal — every term of such a block is masked. It uses
  only that a sum may be regrouped and reordered, so it holds over any commutative monoid; no entry need be finite.
-/
import Idealize.ShloMosaic.PureOps.Ideal.Laws
import Idealize.ShloMosaic.Lib.ValueIdx

noncomputable section

open scoped BigOperators

namespace Cert.NotchSpec

open Idealize.ShloMosaic

/-- One pair's squared shortfall, from the two boxes' centres (a, c), (b, d) and extents (sa, sc), (sb, sd). The three
    float literals are kept as the words both programs print: one half, zero, two. -/
def pairSq (a b c d sa sb sc sd : EReal) : EReal :=
  max (Ideal.ofBits .f32 0x40000000#32 -
      (max (FloatOps.absf (F := Ideal) (φ := .f32) (a - b) - (sa + sb) * Ideal.ofBits .f32 0x3F000000#32) (Ideal.ofBits .f32 0x00000000#32)
        + max (FloatOps.absf (F := Ideal) (φ := .f32) (c - d) - (sc + sd) * Ideal.ofBits .f32 0x3F000000#32) (Ideal.ofBits .f32 0x00000000#32)))
    (Ideal.ofBits .f32 0x00000000#32)
  * max (Ideal.ofBits .f32 0x40000000#32 -
      (max (FloatOps.absf (F := Ideal) (φ := .f32) (a - b) - (sa + sb) * Ideal.ofBits .f32 0x3F000000#32) (Ideal.ofBits .f32 0x00000000#32)
        + max (FloatOps.absf (F := Ideal) (φ := .f32) (c - d) - (sc + sd) * Ideal.ofBits .f32 0x3F000000#32) (Ideal.ofBits .f32 0x00000000#32)))
    (Ideal.ofBits .f32 0x00000000#32)

/-- The masked term at (p, q): the pair's squared shortfall where p < q, zero elsewhere. -/
def term (X Y SX SY : Fin 4096 → EReal) (p q : Fin 4096) : EReal :=
  if p.val < q.val then pairSq (X p) (X q) (Y p) (Y q) (SX p) (SX q) (SY p) (SY q) else 0

/-- The result: the masked terms summed over all pairs. -/
def total (X Y SX SY : Fin 4096 → EReal) : EReal := ∑ p : Fin 4096, ∑ q : Fin 4096, term X Y SX SY p q

theorem term_of_le (X Y SX SY : Fin 4096 → EReal) (p q : Fin 4096) (h : q.val ≤ p.val) : term X Y SX SY p q = 0 := by
  unfold term; rw [if_neg (by omega)]

/-! ## Regrouping by blocks -/

/-- Entry r of the i-th stretch of 512 among 4096. -/
def cell (i : Fin 8) (r : Fin 512) : Fin 4096 := ⟨512 * i.val + r.val, by have := i.isLt; have := r.isLt; omega⟩

theorem cell_val (i : Fin 8) (r : Fin 512) : (cell i r).val = 512 * i.val + r.val := rfl

variable {M : Type*} [AddCommMonoid M]

/-- A sum over 4096 entries, stretch by stretch. -/
theorem sum_cells (g : Fin 4096 → M) : ∑ p : Fin 4096, g p = ∑ i : Fin 8, ∑ r : Fin 512, g (cell i r) := by
  rw [← Fintype.sum_prod_type' (f := fun i r => g (cell i r))]
  exact (Fintype.sum_equiv (finProdFinEquiv (m := 8) (n := 512)) (fun x => g (cell x.1 x.2)) g (fun x => by
    congr 1; apply Fin.ext; rw [cell_val]; simp only [finProdFinEquiv_apply_val]; omega)).symm

/-- A sum over the 64 grid points in row-major order is the double sum over the grid's rows and columns. -/
theorem sum_points (G : Fin 8 → Fin 8 → M) :
    ∑ t : Fin 64, G ⟨t.val / 8, by have := t.isLt; omega⟩ ⟨t.val % 8, by omega⟩ = ∑ i : Fin 8, ∑ j : Fin 8, G i j := by
  rw [← Fintype.sum_prod_type' (f := fun i j => G i j)]
  exact (Fintype.sum_equiv (finProdFinEquiv (m := 8) (n := 8)) (fun x => G x.1 x.2)
    (fun t : Fin 64 => G ⟨t.val / 8, by have := t.isLt; omega⟩ ⟨t.val % 8, by omega⟩) (fun x => by
      have h1 := x.1.isLt; have h2 := x.2.isLt
      congr 1 <;> apply Fin.ext <;> simp only [finProdFinEquiv_apply_val] <;> omega)).symm

/-- One block's sum: rows of stretch i against columns of stretch j. -/
def blockSum (f : Fin 4096 → Fin 4096 → M) (i j : Fin 8) : M := ∑ r : Fin 512, ∑ c : Fin 512, f (cell i r) (cell j c)

/-- A block strictly below the diagonal sums to zero when f vanishes wherever the column is not past the row. -/
theorem blockSum_lower (f : Fin 4096 → Fin 4096 → M) (hf : ∀ p q : Fin 4096, q.val ≤ p.val → f p q = 0) (i j : Fin 8) (h : j.val < i.val) :
    blockSum f i j = 0 := by
  unfold blockSum
  refine Finset.sum_eq_zero fun r _ => Finset.sum_eq_zero fun c _ => hf _ _ ?_
  rw [cell_val, cell_val]; have := r.isLt; have := c.isLt; omega

/-- THE LAW. The double sum over all pairs is the sum, over the 64 grid points in row-major order, of the blocks on or
    above the diagonal. -/
theorem sum_upper_blocks (f : Fin 4096 → Fin 4096 → M) (hf : ∀ p q : Fin 4096, q.val ≤ p.val → f p q = 0) :
    ∑ t : Fin 64, (if t.val / 8 ≤ t.val % 8 then blockSum f ⟨t.val / 8, by have := t.isLt; omega⟩ ⟨t.val % 8, by omega⟩ else 0)
      = ∑ p : Fin 4096, ∑ q : Fin 4096, f p q := by
  have hdrop : ∀ t : Fin 64, (if t.val / 8 ≤ t.val % 8 then blockSum f ⟨t.val / 8, by have := t.isLt; omega⟩ ⟨t.val % 8, by omega⟩ else 0)
      = blockSum f ⟨t.val / 8, by have := t.isLt; omega⟩ ⟨t.val % 8, by omega⟩ := fun t => by
    split
    · rfl
    · rename_i h; exact (blockSum_lower f hf _ _ (by simpa using h)).symm
  rw [Finset.sum_congr rfl fun t _ => hdrop t, sum_points (fun i j => blockSum f i j)]
  rw [sum_cells (fun p => ∑ q : Fin 4096, f p q)]
  refine Finset.sum_congr rfl fun i _ => ?_
  unfold blockSum
  rw [Finset.sum_comm]
  refine Finset.sum_congr rfl fun r _ => ?_
  rw [sum_cells (fun q => f (cell i r) q)]

end Cert.NotchSpec

end
-- ==== Proof.NotchWords.lean ====
/-
  The two masks as comparisons of natural numbers. Both programs decide "row before column" on signed 32-bit
  words: the kernel as (512·i + r) <ₛ (512·j + c), the reference as NOT (p + 0 ≥ₛ q) selecting between the
  constants false and true. All the numbers involved are below 4096, far from the sign bit, so each signed
  comparison is the comparison of the numbers themselves.
-/
import Idealize.ShloMosaic.PureOps.Ideal.Laws

namespace Cert.NotchWords

open Idealize.ShloMosaic

/-- A number below 2³¹ read back from its 32-bit word as a signed integer is itself. -/
theorem toInt_small (a : ℕ) (ha : a < 2 ^ 31) : (BitVec.ofNat 32 a).toInt = (a : ℤ) := by
  have h : (BitVec.ofNat 32 a).toNat = a := by
    rw [BitVec.toNat_ofNat]; exact Nat.mod_eq_of_lt (by omega)
  rw [BitVec.toInt_eq_toNat_of_lt (by rw [h]; omega), h]

/-- The word of a block offset plus a coordinate inside the block. -/
theorem offset_word (I r : ℕ) :
    IntOp.addi (Scalar.muli (BitVec.ofNat 32 I) 512#32) (BitVec.ofNat 32 r) = BitVec.ofNat 32 (I * 512 + r) := by
  show BitVec.ofNat 32 I * BitVec.ofNat 32 512 + BitVec.ofNat 32 r = _
  rw [BitVec.ofNat_add, BitVec.ofNat_mul]

/-- A choice on the kernel's mask: signed "less than" of two small numbers' words. -/
theorem select_slt {α : Type} (a b : ℕ) (ha : a < 2 ^ 31) (hb : b < 2 ^ 31) (A B : α) :
    Scalar.select (IntOp.cmpi .slt (BitVec.ofNat 32 a) (BitVec.ofNat 32 b)) A B = if a < b then A else B := by
  unfold Scalar.select IntOp.cmpi
  simp only [BitVec.slt_eq_decide, toInt_small a ha, toInt_small b hb, Nat.cast_lt]
  by_cases h : a < b
  · simp [h]
  · simp [h]

/-- A choice on the reference's mask: the constant false where row + 0 ≥ column, the constant true elsewhere. -/
theorem select_not_sge {α : Type} (p q : ℕ) (hp : p < 2 ^ 31) (hq : q < 2 ^ 31) (A B : α) :
    Scalar.select (Scalar.select (IntOp.cmpi .sge (IntOp.addi (BitVec.ofNat 32 p) 0#32) (BitVec.ofNat 32 q)) (0#1) (1#1)) A B
      = if p < q then A else B := by
  have h0 : IntOp.addi (BitVec.ofNat 32 p) 0#32 = BitVec.ofNat 32 p := by
    show BitVec.ofNat 32 p + 0#32 = _; exact BitVec.add_zero _
  rw [h0]
  unfold Scalar.select IntOp.cmpi
  simp only [BitVec.sle_eq_decide, toInt_small p hp, toInt_small q hq, Nat.cast_le]
  by_cases h : p < q
  · have h' : ¬q ≤ p := by omega
    simp [h, h']
  · have h' : q ≤ p := by omega
    simp [h, h']

end Cert.NotchWords
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.IdealBlock.lean ====
/-
  The body's arithmetic at the exact instance, read at an index. At row r and column c of a block the body forms
  2 − (gx + gy) from entry r of the four row cuts and entry c of the four column cuts; it clips that at zero,
  squares it, keeps it where the global row 512·i + r lies before the global column 512·j + c, sums along each
  row, then down the column of row sums, and adds the result to the running total.
-/
import proofs.«157306_j28647431864381_2_alg».proof.Proof.IdealPieces
import proofs.«157306_j28647431864381_2_alg».proof.Proof.NotchSpec
import proofs.«157306_j28647431864381_2_alg».proof.Proof.NotchWords
import proofs.«157306_j28647431864381_2_alg».proof.Proof.LibColumnCast
import proofs.«157306_j28647431864381_2_alg».proof.Proof.LibMatOps
import Idealize.ShloMosaic.Lib.ValueLayout
import Idealize.ShloMosaic.PureOps.Ideal.Laws

set_option maxRecDepth 16384

noncomputable section

open scoped BigOperators

namespace Cert.KernelIdeal.Notch

open Cert.KernelIdeal Cert.KernelIdeal.Gen
open Idealize.ShloMosaic Idealize.ShloMosaic.TcCoe Idealize.ShloMosaic.ValueIdx
open Idealize.SL.Sem

/-- The absolute value of an array of extended reals, read at an index. -/
theorem absf_at {s : Shape} {φ : FTy} (a : FVec Ideal s φ) (i : s.Idx) : absf a i = FloatOps.absf (a i) := rfl

/-- A vector of 512 set as a column and spread over 512 columns reads, at (r, c), its entry r; -/
theorem spreadRows {α : Type} (R : S512.Idx → α) (r c : Fin 512) :
    broadcastTo S512x512 (shapeCast S512x1 R shapeCasts_S512_S512x1) broadcasts_S512x1_S512x512 (ix2 r c) = R (ix1 r) :=
  (Cert.MatOps.broadcastTo_a1_ab_apply _ _ r c).trans (Cert.LibColumnCast.column_cast R _ r 0)
/-- set as a row and spread over 512 rows, its entry c. -/
theorem spreadCols {α : Type} (C : S512.Idx → α) (r c : Fin 512) :
    broadcastTo S512x512 (shapeCast S1x512 C shapeCasts_S512_S1x512) broadcasts_S1x512_S512x512 (ix2 r c) = C (ix1 c) :=
  (broadcastTo_1b_ab_apply _ _ r c).trans (shapeCast_a_1a_apply C _ 0 c)

/-- The body's 2 − (gx + gy) at row r and column c of the block, from the eight cuts. -/
theorem pay3_apply (R0 C0 R1 C1 R2 C2 R3 C3 : Vec Ideal S512 .f32) (r c : Fin 512) :
    k0_pay3 (F := Ideal) R0 C0 R1 C1 R2 C2 R3 C3 (ix2 r c)
      = Ideal.ofBits .f32 0x40000000#32 -
          (max (FloatOps.absf (F := Ideal) (φ := .f32) (R0 (ix1 r) - C0 (ix1 c)) - (R2 (ix1 r) + C2 (ix1 c)) * Ideal.ofBits .f32 0x3F000000#32) (Ideal.ofBits .f32 0x00000000#32)
            + max (FloatOps.absf (F := Ideal) (φ := .f32) (R1 (ix1 r) - C1 (ix1 c)) - (R3 (ix1 r) + C3 (ix1 c)) * Ideal.ofBits .f32 0x3F000000#32) (Ideal.ofBits .f32 0x00000000#32)) := by
  unfold k0_pay3
  simp only [subf_apply, addf_apply, mulf_apply, maximumf_apply, broadcast_apply, absf_at, shapeCast_self, spreadRows, spreadCols]
  rfl

/-! ## The block's sum -/

/-- The block's row and column coordinates on the 8 × 8 grid. -/
def bi (i : grid0.Coords) : Fin 8 := ⟨(i 0).val, (i 0).isLt⟩
def bj (i : grid0.Coords) : Fin 8 := ⟨(i 1).val, (i 1).isLt⟩

/-- The masked square at row r and column c of the block at point i: the clipped value squared where the global
    row 512·i + r lies before the global column 512·j + c (compared as signed words), zero elsewhere. -/
def maskedSq (i : grid0.Coords) (v72 : FVec Ideal S512x512 .f32) (r c : Fin 512) : EReal :=
  Scalar.select
    (IntOp.cmpi .slt (IntOp.addi (Scalar.muli (BitVec.ofNat 32 (i 0).val) 512#32) (BitVec.ofNat 32 r.val))
      (IntOp.addi (Scalar.muli (BitVec.ofNat 32 (i 1).val) 512#32) (BitVec.ofNat 32 c.val)))
    (max (v72 (ix2 r c)) (Ideal.ofBits .f32 0x00000000#32) * max (v72 (ix2 r c)) (Ideal.ofBits .f32 0x00000000#32))
    (Ideal.ofBits .f32 0x00000000#32)

/-- Summing along a row of the block: the source index over row r with column k. -/
theorem lift_row (r : Fin 512) (k : Fin 512) : reduces_S512x512_S512.lift (ix1 r) k = ix2 r k := by
  funext a; apply Fin.ext
  match a with
  | ⟨0, _⟩ => rfl
  | ⟨1, _⟩ => rfl
/-- Summing down the one column of row sums: the source index over the one result entry with row k. -/
theorem lift_col (p : Fin 1) (k : Fin 512) : reduces_S512x1_S1.lift (ix1 p) k = ix2 k p := by
  funext a; apply Fin.ext
  match a with
  | ⟨0, _⟩ => rfl
  | ⟨1, _⟩ => rfl

/-- The body's update of the running total, at its one index: the total found plus the block's masked squares summed
    along each row and then over the rows. -/
theorem pay2_apply (i : grid0.Coords) (v72 : FVec Ideal S512x512 .f32) (v89 : Vec Ideal S1x1 .f32) (p z : Fin 1) :
    k0_pay2 (F := Ideal) i v72 v89 (ix2 p z) = v89 (ix2 p z) + ∑ r : Fin 512, ∑ c : Fin 512, maskedSq i v72 r c := by
  unfold k0_pay2
  simp only [addf_apply, shapeCast_self]
  congr 1
  refine (Cert.LibColumnCast.column_cast _ _ p z).trans ?_
  refine (Ideal.multiReduction_add_single _ 0x00000000#32 reduces_S512x1_S1 _ _ (ix1 p)).trans ?_
  refine Finset.sum_congr rfl fun r _ => ?_
  rw [lift_col p r]
  refine (Cert.LibColumnCast.column_cast _ _ r p).trans ?_
  refine (Ideal.multiReduction_add_single _ 0x00000000#32 reduces_S512x512_S512 _ _ (ix1 r)).trans ?_
  refine Finset.sum_congr rfl fun c _ => ?_
  rw [lift_row r c]
  simp only [select_apply, mulf_apply, maximumf_apply, broadcast_apply]
  unfold maskedSq
  congr 1
  show IntOp.cmpi .slt (IntOp.addi _ (iota .tc S512x512 32 [0] iota_S512x512_d0_w32 (ix2 r c)))
      (IntOp.addi _ (iota .tc S512x512 32 [1] iota_S512x512_d1_w32 (ix2 r c))) = _
  rw [iota_single_apply, iota_single_apply]
  rfl

/-! ## The cuts at an index -/

/-- Entry r of a row cut is the array's entry at the block's global row; -/
theorem rowCut_apply (i : grid0.Coords) (h2 : onUpper i) (X : Vec Ideal S4096 .f32) (r : Fin 512) :
    rowCut (F := Ideal) i h2 X (ix1 r) = X (ix1 (Cert.NotchSpec.cell (bi i) r)) := by
  show X ((Rect.unit (s := S4096) (k0_off1 i) S512.size _).idx (ix1 r)) = _
  refine congrArg X (funext fun a => Fin.ext ?_)
  match a with
  | ⟨0, _⟩ =>
    show k0_off1 i 0 + 1 * r.val = 512 * (i 0).val + r.val
    rw [k0_off1_eq i]; simp
/-- entry c of a column cut, at the block's global column. -/
theorem colCut_apply (i : grid0.Coords) (h2 : onUpper i) (X : Vec Ideal S4096 .f32) (c : Fin 512) :
    colCut (F := Ideal) i h2 X (ix1 c) = X (ix1 (Cert.NotchSpec.cell (bj i) c)) := by
  show X ((Rect.unit (s := S4096) (k0_off2 i) S512.size _).idx (ix1 c)) = _
  refine congrArg X (funext fun a => Fin.ext ?_)
  match a with
  | ⟨0, _⟩ =>
    show k0_off2 i 0 + 1 * c.val = 512 * (i 1).val + c.val
    rw [k0_off2_eq i]; simp

/-! ## A block's masked square is the specification's term at the block's global cell -/

theorem maskedSq_eq (i : grid0.Coords) (h2 : onUpper i) (X0 X1 X2 X3 : Vec Ideal S4096 .f32) (r c : Fin 512) :
    maskedSq i (k0_pay3 (F := Ideal) (rowCut i h2 X0) (colCut i h2 X0) (rowCut i h2 X1) (colCut i h2 X1)
        (rowCut i h2 X2) (colCut i h2 X2) (rowCut i h2 X3) (colCut i h2 X3)) r c
      = Cert.NotchSpec.term (fun p => X0 (ix1 p)) (fun p => X1 (ix1 p)) (fun p => X2 (ix1 p)) (fun p => X3 (ix1 p))
          (Cert.NotchSpec.cell (bi i) r) (Cert.NotchSpec.cell (bj i) c) := by
  have hi : (i 0).val < 8 := (i 0).isLt
  have hj : (i 1).val < 8 := (i 1).isLt
  have hr := r.isLt
  have hc := c.isLt
  unfold maskedSq
  rw [Cert.NotchWords.offset_word, Cert.NotchWords.offset_word,
    Cert.NotchWords.select_slt _ _ (by omega) (by omega), pay3_apply]
  unfold Cert.NotchSpec.term Cert.NotchSpec.pairSq
  rw [Cert.NotchSpec.cell_val, Cert.NotchSpec.cell_val]
  by_cases h : (i 0).val * 512 + r.val < (i 1).val * 512 + c.val
  · rw [if_pos h, if_pos (show 512 * (bi i).val + r.val < 512 * (bj i).val + c.val from by show 512 * (i 0).val + r.val < 512 * (i 1).val + c.val; omega)]
    simp only [rowCut_apply, colCut_apply]
  · rw [if_neg h, if_neg (show ¬ 512 * (bi i).val + r.val < 512 * (bj i).val + c.val from by show ¬ 512 * (i 0).val + r.val < 512 * (i 1).val + c.val; omega)]
    exact Ideal.ofBits_zero_f32

/-- THE BLOCK. The total after a summed point is the total found plus the specification's block sum at the point's
    grid coordinates, over the four arrays the cuts were taken from. -/
theorem blockVal_apply (i : grid0.Coords) (h2 : onUpper i) (X0 X1 X2 X3 : Vec Ideal S4096 .f32) (xs : Vec Ideal S1x1 .f32) (y : S1x1.Idx) :
    blockVal (F := Ideal) i h2 X0 X1 X2 X3 xs y
      = xs y + Cert.NotchSpec.blockSum
          (Cert.NotchSpec.term (fun p => X0 (ix1 p)) (fun p => X1 (ix1 p)) (fun p => X2 (ix1 p)) (fun p => X3 (ix1 p))) (bi i) (bj i) := by
  obtain ⟨p, z, rfl⟩ : ∃ (p z : Fin 1), y = ix2 p z := ⟨y 0, y 1, eq_ix2 y⟩
  unfold blockVal
  rw [pay2_apply]
  congr 1
  unfold Cert.NotchSpec.blockSum
  exact Finset.sum_congr rfl fun r _ => Finset.sum_congr rfl fun c _ => maskedSq_eq i h2 X0 X1 X2 X3 r c

end Cert.KernelIdeal.Notch

end
-- ==== Proof.NotchArrays.lean ====
/-
  The specification over the programs' argument arrays: the position vector of 8192 entries holds the 4096
  x-centres followed by the 4096 y-centres; the two extent vectors have 4096 entries each. Also the contribution
  of each grid point, in the order the kernel visits them, and that the 64 contributions add up to the result.
-/
import proofs.«157306_j28647431864381_2_alg».proof.Proof.NotchSpec

noncomputable section

open scoped BigOperators

namespace Cert.NotchSpec

open Idealize.ShloMosaic Idealize.ShloMosaic.ValueIdx

/-- The x-centre of box p: entry p of the position vector; -/
def xOf (pos : (⟨1, ![8192]⟩ : Shape).Idx → EReal) (p : Fin 4096) : EReal :=
  pos (ix1 (⟨p.val, by have := p.isLt; omega⟩ : Fin 8192))
/-- its y-centre: entry 4096 + p. -/
def yOf (pos : (⟨1, ![8192]⟩ : Shape).Idx → EReal) (p : Fin 4096) : EReal :=
  pos (ix1 (⟨4096 + p.val, by have := p.isLt; omega⟩ : Fin 8192))
/-- An extent vector's entry p. -/
def ofVec (v : (⟨1, ![4096]⟩ : Shape).Idx → EReal) (p : Fin 4096) : EReal := v (ix1 p)

/-- THE RESULT, as a function of the three float arguments. -/
def result (pos : (⟨1, ![8192]⟩ : Shape).Idx → EReal) (sx sy : (⟨1, ![4096]⟩ : Shape).Idx → EReal) : EReal :=
  total (xOf pos) (yOf pos) (ofVec sx) (ofVec sy)

variable {M : Type*} [AddCommMonoid M]

/-- What grid point k (row-major on the 8 × 8 grid) adds to the running total: its block's sum when the block lies on
    or above the diagonal, nothing otherwise. -/
def contrib (f : Fin 4096 → Fin 4096 → M) (k : ℕ) : M :=
  if h : k < 64 then (if k / 8 ≤ k % 8 then blockSum f ⟨k / 8, by omega⟩ ⟨k % 8, by omega⟩ else 0) else 0

/-- The 64 contributions add up to the double sum over all pairs. -/
theorem sum_contrib (f : Fin 4096 → Fin 4096 → M) (hf : ∀ p q : Fin 4096, q.val ≤ p.val → f p q = 0) :
    ∑ k ∈ Finset.range 64, contrib f k = ∑ p : Fin 4096, ∑ q : Fin 4096, f p q := by
  rw [Finset.sum_range, ← sum_upper_blocks f hf]
  refine Finset.sum_congr rfl fun t _ => ?_
  unfold contrib
  rw [dif_pos t.isLt]

end Cert.NotchSpec

end
-- ==== Proof.IdealTotal.lean ====
/-
  The running total, point by point, at the exact instance. Each input window is its whole array at every grid point;
  the first two arrays are the two halves of the position vector. One point's step adds that point's
  contribution to the total it found — at the first point to zero, whatever the buffer held —, so after point n
  the total is the sum of the contributions of points 0 … n, and after the last point it is the specification's
  result, which the last point also copies into the result's buffer.
-/
import proofs.«157306_j28647431864381_2_alg».proof.Proof.IdealBlock
import proofs.«157306_j28647431864381_2_alg».proof.Proof.NotchArrays
import Idealize.ShloMosaic.Lib.Pipeline.Value
import Idealize.ShloMosaic.Lib.StableHlo.Run

set_option maxRecDepth 16384

noncomputable section

open scoped BigOperators

namespace Cert.KernelIdeal.Notch

open Cert.KernelIdeal Cert.KernelIdeal.Gen
open Idealize.ShloMosaic Idealize.ShloMosaic.TcCoe Idealize.ShloMosaic.ValueIdx
open Idealize.SL.Sem

open Idealize.ShloMosaic.StableHlo

variable (m : (ℓ : Loc nD τ sig) → Buf (Elt Ideal) ℓ)

/-! ## The input blocks are the whole arrays -/

theorem index0 : ∀ t : Fin cfg0.N, win0_0.index t (0 : Fin 1) = 0 :=
  (by decide +kernel : ∀ t : Fin grid0.N, win0_0.index t (0 : Fin 1) = 0)
theorem index1 : ∀ t : Fin cfg0.N, win0_1.index t (0 : Fin 1) = 0 :=
  (by decide +kernel : ∀ t : Fin grid0.N, win0_1.index t (0 : Fin 1) = 0)
theorem index2 : ∀ t : Fin cfg0.N, win0_2.index t (0 : Fin 1) = 0 :=
  (by decide +kernel : ∀ t : Fin grid0.N, win0_2.index t (0 : Fin 1) = 0)
theorem index3 : ∀ t : Fin cfg0.N, win0_3.index t (0 : Fin 1) = 0 :=
  (by decide +kernel : ∀ t : Fin grid0.N, win0_3.index t (0 : Fin 1) = 0)

theorem iblk0 (c : Dev nD) (t : Fin cfg0.N) (y : S4096.Idx) : iblk m c 0 t y = V m c main_v0 y := by
  show V m c main_v0 (((cfg0.win 0).blk t).view.emb y) = V m c main_v0 y
  refine congrArg (V m c main_v0) (funext fun a => Fin.ext ?_)
  match a with
  | ⟨0, _⟩ =>
    show win0_0.index t 0 * 4096 + 1 * (y 0).val = (y 0).val
    rw [index0 t]; omega
theorem iblk1 (c : Dev nD) (t : Fin cfg0.N) (y : S4096.Idx) : iblk m c 1 t y = V m c main_v1 y := by
  show V m c main_v1 (((cfg0.win 1).blk t).view.emb y) = V m c main_v1 y
  refine congrArg (V m c main_v1) (funext fun a => Fin.ext ?_)
  match a with
  | ⟨0, _⟩ =>
    show win0_1.index t 0 * 4096 + 1 * (y 0).val = (y 0).val
    rw [index1 t]; omega
theorem iblk2 (c : Dev nD) (t : Fin cfg0.N) (y : S4096.Idx) : iblk m c 2 t y = V m c main_arg2 y := by
  show V m c main_arg2 (((cfg0.win 2).blk t).view.emb y) = V m c main_arg2 y
  refine congrArg (V m c main_arg2) (funext fun a => Fin.ext ?_)
  match a with
  | ⟨0, _⟩ =>
    show win0_2.index t 0 * 4096 + 1 * (y 0).val = (y 0).val
    rw [index2 t]; omega
theorem iblk3 (c : Dev nD) (t : Fin cfg0.N) (y : S4096.Idx) : iblk m c 3 t y = V m c main_arg3 y := by
  show V m c main_arg3 (((cfg0.win 3).blk t).view.emb y) = V m c main_arg3 y
  refine congrArg (V m c main_arg3) (funext fun a => Fin.ext ?_)
  match a with
  | ⟨0, _⟩ =>
    show win0_3.index t 0 * 4096 + 1 * (y 0).val = (y 0).val
    rw [index3 t]; omega

/-! ## The arrays the region finds, from the arguments -/

/-- The two slices the host takes of the position vector before the region. -/
theorem V_v0 (c : Dev nD) :
    V m c main_v0 = extractStridedSlice S4096 ![0] (m ((c : Thread nD τ).loc main_arg0)) slices_S8192_S4096_0 := by
  show StableHlo.after hostOps0 (fun b => m (c, b)) (Proc.devRef .tc main_v0) = _
  after_results
theorem V_v1 (c : Dev nD) :
    V m c main_v1 = extractStridedSlice S4096 ![4096] (m ((c : Thread nD τ).loc main_arg0)) slices_S8192_S4096_4096 := by
  show StableHlo.after hostOps0 (fun b => m (c, b)) (Proc.devRef .tc main_v1) = _
  after_results

theorem arr0_apply (c : Dev nD) (p : Fin 4096) :
    V m c main_v0 (ix1 p) = Cert.NotchSpec.xOf (m ((c : Thread nD τ).loc main_arg0)) p := by
  rw [V_v0]
  unfold Cert.NotchSpec.xOf
  exact extractStridedSlice_apply ![0] (m ((c : Thread nD τ).loc main_arg0)) slices_S8192_S4096_0 (ix1 p)
    (ix1 (⟨p.val, by have := p.isLt; omega⟩ : Fin 8192)) (fun a => match a with
    | ⟨0, _⟩ => by show p.val = 0 + p.val; omega)
theorem arr1_apply (c : Dev nD) (p : Fin 4096) :
    V m c main_v1 (ix1 p) = Cert.NotchSpec.yOf (m ((c : Thread nD τ).loc main_arg0)) p := by
  rw [V_v1]
  unfold Cert.NotchSpec.yOf
  exact extractStridedSlice_apply ![4096] (m ((c : Thread nD τ).loc main_arg0)) slices_S8192_S4096_4096 (ix1 p)
    (ix1 (⟨4096 + p.val, by have := p.isLt; omega⟩ : Fin 8192)) (fun a => match a with
    | ⟨0, _⟩ => by show 4096 + p.val = 4096 + p.val; omega)
theorem arr2_apply (c : Dev nD) (p : Fin 4096) :
    V m c main_arg2 (ix1 p) = Cert.NotchSpec.ofVec (m ((c : Thread nD τ).loc main_arg2)) p := by
  rw [V_main_arg2]; rfl
theorem arr3_apply (c : Dev nD) (p : Fin 4096) :
    V m c main_arg3 (ix1 p) = Cert.NotchSpec.ofVec (m ((c : Thread nD τ).loc main_arg3)) p := by
  rw [V_main_arg3]; rfl

/-- The masked term over the arguments. -/
def T (c : Dev nD) : Fin 4096 → Fin 4096 → EReal :=
  Cert.NotchSpec.term (Cert.NotchSpec.xOf (m ((c : Thread nD τ).loc main_arg0))) (Cert.NotchSpec.yOf (m ((c : Thread nD τ).loc main_arg0)))
    (Cert.NotchSpec.ofVec (m ((c : Thread nD τ).loc main_arg2))) (Cert.NotchSpec.ofVec (m ((c : Thread nD τ).loc main_arg3)))

/-- The term over the blocks at any point is the term over the arguments. -/
theorem term_blocks (c : Dev nD) (t : Fin cfg0.N) :
    Cert.NotchSpec.term (fun p => iblk m c 0 t (ix1 p)) (fun p => iblk m c 1 t (ix1 p)) (fun p => iblk m c 2 t (ix1 p)) (fun p => iblk m c 3 t (ix1 p))
      = T m c := by
  have e0 : (fun p : Fin 4096 => iblk m c 0 t (ix1 p)) = Cert.NotchSpec.xOf (m ((c : Thread nD τ).loc main_arg0)) :=
    funext fun p => (iblk0 m c t (ix1 p)).trans (arr0_apply m c p)
  have e1 : (fun p : Fin 4096 => iblk m c 1 t (ix1 p)) = Cert.NotchSpec.yOf (m ((c : Thread nD τ).loc main_arg0)) :=
    funext fun p => (iblk1 m c t (ix1 p)).trans (arr1_apply m c p)
  have e2 : (fun p : Fin 4096 => iblk m c 2 t (ix1 p)) = Cert.NotchSpec.ofVec (m ((c : Thread nD τ).loc main_arg2)) :=
    funext fun p => (iblk2 m c t (ix1 p)).trans (arr2_apply m c p)
  have e3 : (fun p : Fin 4096 => iblk m c 3 t (ix1 p)) = Cert.NotchSpec.ofVec (m ((c : Thread nD τ).loc main_arg3)) :=
    funext fun p => (iblk3 m c t (ix1 p)).trans (arr3_apply m c p)
  rw [e0, e1, e2, e3]
  rfl

/-! ## One point's step -/

theorem coords_div : ∀ t : Fin cfg0.N, ((grid0.coords t) 0).val = t.val / 8 :=
  (by decide +kernel : ∀ t : Fin grid0.N, ((grid0.coords t) 0).val = t.val / 8)
theorem coords_mod : ∀ t : Fin cfg0.N, ((grid0.coords t) 1).val = t.val % 8 :=
  (by decide +kernel : ∀ t : Fin grid0.N, ((grid0.coords t) 1).val = t.val % 8)

theorem lt64 (t : Fin cfg0.N) : t.val < 64 := lt_of_lt_of_eq t.isLt (show cfg0.N = 64 from N_0)

/-- At a summed point the specification's block sum at the point's grid coordinates is the point's contribution; -/
theorem blockSum_contrib (f : Fin 4096 → Fin 4096 → EReal) (t : Fin cfg0.N) (h2 : onUpper (grid0.coords t)) :
    Cert.NotchSpec.blockSum f (bi (grid0.coords t)) (bj (grid0.coords t)) = Cert.NotchSpec.contrib f t.val := by
  unfold Cert.NotchSpec.contrib
  rw [dif_pos (lt64 t), if_pos ((onUpper_iff t).mp h2)]
  congr 1 <;> apply Fin.ext
  · exact coords_div t
  · exact coords_mod t
/-- at any other point the contribution is zero. -/
theorem contrib_lower (f : Fin 4096 → Fin 4096 → EReal) (t : Fin cfg0.N) (h2 : ¬onUpper (grid0.coords t)) :
    Cert.NotchSpec.contrib f t.val = 0 := by
  unfold Cert.NotchSpec.contrib
  rw [dif_pos (lt64 t), if_neg (fun h => h2 ((onUpper_iff t).mpr h))]

/-- The zero the first point stores before it accumulates. -/
theorem pay1_zero (y : S1x1.Idx) : k0_pay1 (F := Ideal) y = 0 := by
  unfold k0_pay1
  simp only [shapeCast_self, broadcast_apply]
  exact Ideal.ofBits_zero_f32

/-- ONE STEP: the total after the body at point t is the total it found (zero at the first point) plus the point's
    contribution. -/
theorem stepAt_val (c : Dev nD) (t : Fin cfg0.N) (xs : Vec Ideal S1x1 .f32) (y : S1x1.Idx) :
    (stepAt m c t xs).2 y = (if atFirst (grid0.coords t) then 0 else xs y) + Cert.NotchSpec.contrib (T m c) t.val := by
  by_cases h2 : onUpper (grid0.coords t)
  · by_cases h1 : atFirst (grid0.coords t)
    · rw [step_first m c t xs h2 h1, left_first, blockVal_apply, term_blocks, pay1_zero, if_pos h1, blockSum_contrib _ t h2]
    · by_cases h3 : atLast (grid0.coords t)
      · rw [step_last_acc m c t xs h2 h1 h3, left_last_acc, blockVal_apply, term_blocks, if_neg h1, blockSum_contrib _ t h2]
      · rw [step_upper m c t xs h2 h1 h3, left_upper, blockVal_apply, term_blocks, if_neg h1, blockSum_contrib _ t h2]
  · have h1 : ¬atFirst (grid0.coords t) := fun h => h2 (first_upper t h)
    rw [step_lower m c t xs h2, if_neg h1, contrib_lower _ t h2, add_zero]

/-- At the last point the result's buffer receives the total. -/
theorem stepAt_out (c : Dev nD) (t : Fin cfg0.N) (xs : Vec Ideal S1x1 .f32) (h3 : atLast (grid0.coords t)) :
    (stepAt m c t xs).1 = (stepAt m c t xs).2 := by
  have h2 := last_upper t h3
  have h1 : ¬atFirst (grid0.coords t) := fun h => first_notLast t h h3
  rw [step_last_out m c t xs h2 h1 h3, step_last_acc m c t xs h2 h1 h3, left_last_out, left_last_acc]

/-! ## The accumulation -/

/-- After point n the total is the sum of the contributions of points 0 … n. -/
theorem acc_after (c : Dev nD) : ∀ (n : ℕ) (hn : n < cfg0.N) (y : S1x1.Idx),
    (outsAt m c n hn).2 y = ∑ k ∈ Finset.range (n + 1), Cert.NotchSpec.contrib (T m c) k := by
  intro n
  induction n with
  | zero =>
    intro hn y
    rw [show outsAt m c 0 hn = stepAt m c ⟨0, hn⟩ (accV.read (Elt Ideal) accV.junk) from rfl, stepAt_val,
      if_pos ((atFirst_iff ⟨0, hn⟩).mpr rfl), zero_add, Finset.sum_range_one]
  | succ n ih =>
    intro hn y
    rw [show outsAt m c (n + 1) hn = stepAt m c ⟨n + 1, hn⟩ (outsAt m c n (Nat.lt_of_succ_lt hn)).2 from rfl, stepAt_val,
      if_neg (fun h => absurd ((atFirst_iff ⟨n + 1, hn⟩).mp h) (Nat.succ_ne_zero n)), ih, Finset.sum_range_succ _ (n + 1)]

/-- THE KERNEL'S VALUE: after the last point the result's buffer holds the specification's result. -/
theorem out_last (c : Dev nD) (h : 63 < cfg0.N) (y : S1x1.Idx) :
    (outsAt m c 63 h).1 y
      = Cert.NotchSpec.result (m ((c : Thread nD τ).loc main_arg0)) (m ((c : Thread nD τ).loc main_arg2)) (m ((c : Thread nD τ).loc main_arg3)) := by
  have e : (outsAt m c 63 h).1 = (outsAt m c 63 h).2 := by
    rw [show outsAt m c 63 h = stepAt m c ⟨63, h⟩ (outsAt m c 62 (Nat.lt_of_succ_lt h)).2 from rfl]
    exact stepAt_out m c ⟨63, h⟩ _ ((atLast_iff ⟨63, h⟩).mpr rfl)
  rw [e, acc_after m c 63 h y]
  show ∑ k ∈ Finset.range 64, Cert.NotchSpec.contrib (T m c) k = _
  rw [Cert.NotchSpec.sum_contrib (T m c) (fun p q hpq => Cert.NotchSpec.term_of_le _ _ _ _ p q hpq)]
  rfl

end Cert.KernelIdeal.Notch

end
-- ==== Proof.IdealValue.lean ====
/-
  The kernel's result. The result window is written back once, at the last grid point, with the running total; so the
  window's one-element array ends at the specification's result, and the host's reshape of it to a scalar after
  the region is the program's result.
-/
import proofs.«157306_j28647431864381_2_alg».proof.Proof.IdealTotal
import Idealize.ShloMosaic.Lib.Pipeline.Value
import Idealize.ShloMosaic.Lib.StableHlo.Run

set_option maxRecDepth 16384

noncomputable section

open scoped BigOperators

namespace Cert.KernelIdeal.Notch

open Cert.KernelIdeal Cert.KernelIdeal.Gen
open Idealize.ShloMosaic Idealize.ShloMosaic.TcCoe Idealize.ShloMosaic.ValueIdx
open Idealize.SL.Sem

open Idealize.ShloMosaic.StableHlo
open Idealize.ShloMosaic.Pipeline (Dat)

variable (m : (ℓ : Loc nD τ sig) → Buf (Elt Ideal) ℓ) (ρ : Dev nD → PrngReg)

/-- The specification's result over core c's argument arrays. -/
def resultOf (c : Dev nD) : EReal :=
  Cert.NotchSpec.result (m ((c : Thread nD τ).loc main_arg0)) (m ((c : Thread nD τ).loc main_arg2)) (m ((c : Thread nD τ).loc main_arg3))

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem lt_last : 63 < cfg0.N := by rw [show cfg0.N = 64 from N_0]; omega

set_option maxHeartbeats 1000000 in
/-- What the last point writes back is the result, at the window's one index. -/
theorem flushed4 (c : Dev nD) (t : Fin cfg0.N) (hf : (cfg0.win 4).flush t = true) :
    (dats m 0 c).flushed 4 t = ((cfg0.win 4).blk t).view.read (Elt Ideal) (fun _ => resultOf m c) := by
  show (cfg0.win 4).cut (grid0.coords t) ((dats m 0 c).after 4 t) = _
  rw [after4]
  have h63 : t.val = 63 := by have h1 := (flush0_4 t).mp hf; have h2 := lt64 t; omega
  have ht : t = ⟨63, lt_last⟩ := Fin.ext h63
  subst ht
  funext y
  rw [View.read_apply]
  exact out_last m c lt_last y

/-- An index of the one-element array is in a point's block iff each coordinate is in the block's range. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- THE RESULT WINDOW'S ARRAY after the run: the result, at its one index. -/
theorem final4 (c : Dev nD) : (dats m 0 c).arrAt 4 cfg0.N = fun _ => resultOf m c :=
  (dats m 0 c).arrAt_eq_of_cover 4 _ (fun t hf => flushed4 m c t hf) (fun i => ⟨⟨63, lt_last⟩, (flush0_4 _).mpr rfl, by
    rw [mem_blk4]
    obtain ⟨e0, e1⟩ := index4 ⟨63, lt_last⟩
    intro a
    match a with
    | ⟨0, _⟩ => show win0_4.index ⟨63, lt_last⟩ (0 : Fin 2) * 1 ≤ (i 0).val ∧ (i 0).val < win0_4.index ⟨63, lt_last⟩ (0 : Fin 2) * 1 + 1; have h0 : (i 0).val < 1 := (i 0).isLt; omega
    | ⟨1, _⟩ => show win0_4.index ⟨63, lt_last⟩ (1 : Fin 2) * 1 ≤ (i 1).val ∧ (i 1).val < win0_4.index ⟨63, lt_last⟩ (1 : Fin 2) * 1 + 1; have h1 : (i 1).val < 1 := (i 1).isLt; omega⟩)

/-- The lines after the region: the one-element array reshaped to a scalar is the result. -/
theorem tail_v3 (c : Dev nD) :
    Pipeline.afterTail₀ cfgs (dats m) 0 (V0 m) [hostOps1] c main_v3 = fun _ => resultOf m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = fun _ => resultOf m c :=
    (Pipeline.withArrays_arr spec0 launch0.win.arr_inj c _ _ 4).trans (final4 m c)
  rw [e]
  rfl

/-- THE KERNEL'S RUN, READ: every execution ends with the program's result at the specification's result and the
    arguments as they were. -/
theorem value_run : θ_run defs (onTc (τ := τ) (main (F := Ideal))) ⟨m, fun _ => 0, ρ⟩ (fun r => ∀ c : Dev nD,
      r.2.mem ((c.tc : Thread nD τ).loc main_v3) = (fun _ => resultOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (tail_v3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main (F := Ideal) m ρ)

end Cert.KernelIdeal.Notch

end
-- ==== Proof.RefValue.lean ====
/-
  The reference computes the specification's result. It spreads the four vectors over the 4096 × 4096 pair-space,
  forms each pair's squared shortfall there, masks it to zero where the row is not before the column, and sums
  everything starting from zero. Read at an index, each of its operations is the corresponding step of the
  specification.
-/
import proofs.«157306_j28647431864381_2_alg».proof.Proof.Gen.ReferenceIdeal.Read
import proofs.«157306_j28647431864381_2_alg».proof.Proof.NotchArrays
import proofs.«157306_j28647431864381_2_alg».proof.Proof.NotchWords
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.NotchSpec

variable (x0 : (⟨S8192, .f32⟩ : BufTy).Contents (Elt Ideal)) (x2 x3 : (⟨S4096, .f32⟩ : BufTy).Contents (Elt Ideal))

/-- The squared shortfall the reference forms at (p, q) is the specification's, of boxes p and q. -/
theorem ref_sq (p q : Fin 4096) :
    val_main_v38 (F := Ideal) x0 x2 x3 (ix2 p q)
      = pairSq (xOf x0 p) (xOf x0 q) (yOf x0 p) (yOf x0 q) (ofVec x2 p) (ofVec x2 q) (ofVec x3 p) (ofVec x3 q) := by
  have ex_p : idx_main_v0 (idx_main_v2 (idx_main_v4 (ix2 p q))) = ix1 (⟨p.val, by have := p.isLt; omega⟩ : Fin 8192) :=
    funext fun a => Fin.ext (by match a with | ⟨0, _⟩ => rfl)
  have ex_q : idx_main_v0 (idx_main_v3 (idx_main_v5 (ix2 p q))) = ix1 (⟨q.val, by have := q.isLt; omega⟩ : Fin 8192) :=
    funext fun a => Fin.ext (by match a with | ⟨0, _⟩ => rfl)
  have ey_p : idx_main_v1 (idx_main_v8 (idx_main_v10 (ix2 p q))) = ix1 (⟨4096 + p.val, by have := p.isLt; omega⟩ : Fin 8192) :=
    funext fun a => Fin.ext (by match a with | ⟨0, _⟩ => rfl)
  have ey_q : idx_main_v1 (idx_main_v9 (idx_main_v11 (ix2 p q))) = ix1 (⟨4096 + q.val, by have := q.isLt; omega⟩ : Fin 8192) :=
    funext fun a => Fin.ext (by match a with | ⟨0, _⟩ => rfl)
  have e2_p : idx_main_v14 (idx_main_v16 (ix2 p q)) = ix1 p := funext fun a => Fin.ext (by match a with | ⟨0, _⟩ => rfl)
  have e2_q : idx_main_v15 (idx_main_v17 (ix2 p q)) = ix1 q := funext fun a => Fin.ext (by match a with | ⟨0, _⟩ => rfl)
  have e3_p : idx_main_v21 (idx_main_v23 (ix2 p q)) = ix1 p := funext fun a => Fin.ext (by match a with | ⟨0, _⟩ => rfl)
  have e3_q : idx_main_v22 (idx_main_v24 (ix2 p q)) = ix1 q := funext fun a => Fin.ext (by match a with | ⟨0, _⟩ => rfl)
  simp only [val_main_v38_apply, val_main_v35_apply, val_main_v34_apply, val_main_v33_apply, val_main_cst_1_apply, val_main_v32_apply, val_main_v29_apply, val_main_v31_apply, val_main_v28_apply, val_main_v30_apply, val_main_call0_v0_apply, val_main_call0_cst_apply, val_main_call1_v0_apply, val_main_call1_cst_apply, val_main_call2_v0_apply, val_main_call2_cst_apply, val_main_v7_apply, val_main_v13_apply, val_main_v6_apply, val_main_v12_apply, val_main_v20_apply, val_main_v27_apply, val_main_v18_apply, val_main_v25_apply, val_main_v19_apply, val_main_v26_apply, val_main_cst_apply, val_main_cst_0_apply, val_main_v4_apply, val_main_v5_apply, val_main_v10_apply, val_main_v11_apply, val_main_v16_apply, val_main_v17_apply, val_main_v23_apply, val_main_v24_apply, val_main_v2_apply, val_main_v3_apply, val_main_v8_apply, val_main_v9_apply, val_main_v14_apply, val_main_v15_apply, val_main_v21_apply, val_main_v22_apply, val_main_v0_apply, val_main_v1_apply,
    ex_p, ex_q, ey_p, ey_q, e2_p, e2_q, e3_p, e3_q]
  rfl

/-- The masked term the reference sums at (p, q) is the specification's. -/
theorem ref_term (p q : Fin 4096) :
    val_main_v39 (F := Ideal) x0 x2 x3 (ix2 p q) = term (xOf x0) (yOf x0) (ofVec x2) (ofVec x3) p q := by
  have hp := p.isLt
  have hq := q.isLt
  rw [val_main_v39_apply, val_main_v37_apply, val_main_call3_v4_apply, val_main_call3_v2_apply, val_main_call3_v0_apply,
    val_main_call3_v1_apply, val_main_call3_c_apply, val_main_call3_v3_apply, val_main_call3_v5_apply, val_main_call3_c_0_apply,
    val_main_v36_apply, val_main_c_apply]
  show Scalar.select (Scalar.select (IntOp.cmpi .sge (IntOp.addi (BitVec.ofNat 32 p.val) 0#32) (BitVec.ofNat 32 q.val)) (0#1) (1#1)) _ _ = _
  rw [Cert.NotchWords.select_not_sge p.val q.val (by omega) (by omega)]
  unfold term
  by_cases h : p.val < q.val
  · rw [if_pos h, if_pos h]; exact ref_sq x0 x2 x3 p q
  · rw [if_neg h, if_neg h, val_main_call4_v0_apply, val_main_cst_2_apply]; exact Ideal.ofBits_zero_f32

/-- THE REFERENCE'S VALUE: its one result entry is the specification's result. -/
theorem ref_result (i : S_.Idx) : val_main_v40 (F := Ideal) x0 x2 x3 i = result x0 x2 x3 := by
  rw [val_main_v40_apply, val_main_cst_3_apply]
  show Ideal.ofBits .f32 0x00000000#32 + _ = _
  rw [Ideal.ofBits_zero_f32, zero_add, sum_idx2]
  unfold result total
  exact Finset.sum_congr rfl fun p _ => Finset.sum_congr rfl fun q _ => ref_term x0 x2 x3 p q

end Cert.ReferenceIdeal.RefValue

end
-- ==== Proof.lean ====
/-
  A PAIRWISE GAP PENALTY, SUMMED OVER THE STRICT UPPER TRIANGLE.

  Inputs: a position vector of 8192 entries (4096 x-centres, then 4096 y-centres) and two vectors of 4096 extents.
  For a pair of boxes p < q let gx = max (|x p − x q| − (sx p + sx q)/2) 0, gy likewise, pen = max (2 − (gx + gy)) 0;
  the result is the sum of pen² over all pairs p < q.

  The reference forms the 4096 × 4096 array of pen², masks it to zero where p ≥ q, and sums it. The kernel walks an
  8 × 8 grid of 512 × 512 blocks in row-major order with a running total kept in a buffer of its own: it sets
  the total to zero at block (0, 0), adds a block's masked sum — along each row, then over the rows — when the
  block's first row lies before the end of its columns (i ≤ j), does nothing at the other blocks, and copies the
  total to the result at block (7, 7).

  Why they agree on the extended reals: at an index both programs apply the same operations to the same entries and
  the same three literals (one half, zero, two); the two masks are the same comparison of numbers below 4096;
  every term of a skipped block is masked, so the block's sum is zero; and the rest is a regrouping and
  reordering of one finite sum, valid in any commutative monoid — so no entry need be finite, and the
  precondition is not used.

  The frames: each program runs to the end, faults nowhere and leaves its arguments as they were. For the two
  kernel programs this is the per-case run of the body at every grid point with the total's contents carried
  from point to point; for the reference it is its run with the result dropped. The idealized kernel is the
  kernel's own text read at the exact instance: nothing was rewritten, so there is nothing to preserve.
-/
import proofs.«157306_j28647431864381_2_alg».proof.Defs
import proofs.«157306_j28647431864381_2_alg».proof.Proof.Gen.Kernel
import proofs.«157306_j28647431864381_2_alg».proof.Proof.Gen.KernelIdeal
import proofs.«157306_j28647431864381_2_alg».proof.Proof.Gen.ReferenceIdeal
import proofs.«157306_j28647431864381_2_alg».proof.Proof.Gen.ReferenceIdeal.Run
import proofs.«157306_j28647431864381_2_alg».proof.Proof.Gen.ReferenceIdeal.Read
import proofs.«157306_j28647431864381_2_alg».proof.Proof.Gen.Pre_finite_inputs
import proofs.«157306_j28647431864381_2_alg».proof.Proof.BitsBody
import proofs.«157306_j28647431864381_2_alg».proof.Proof.IdealValue
import proofs.«157306_j28647431864381_2_alg».proof.Proof.RefValue

noncomputable section

namespace Cert.Proof

open Idealize.ShloMosaic Idealize.SL.Sem

/-- The kernel as printed runs and keeps its arguments. -/
theorem frame_kernel : Cert.frame_Kernel := fun m ρ _ => Cert.Kernel.Notch.frame (F := Bits) m ρ

/-- So does its reading at the exact instance. -/
theorem frame_kernel_ideal : Cert.frame_KernelIdeal := fun m ρ _ => Cert.KernelIdeal.Notch.frame (F := Ideal) m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end at the specification's result of the arguments they agree on. -/
theorem algebraic : Cert.algebraic_KernelIdeal_ReferenceIdeal := by
  intro m ρ m' ρ' _ hagree
  refine ⟨fun c => fun _ => Cert.KernelIdeal.Notch.resultOf m c, Cert.KernelIdeal.Notch.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.2.1, (hagree c).2.2.2]
  funext i
  exact Cert.ReferenceIdeal.RefValue.ref_result _ _ _ i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
